-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S5000x128 : Shape := ⟨2, ![5000, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x1, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S100000, .f32⟩
  | 3 => ⟨S100000x1, .f32⟩
  | 4 => ⟨S100000x1, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_call4_cst : Ref sig .tc := ⟨.hbm, 120, rfl⟩
abbrev main_call4_v0 : Ref sig .tc := ⟨.hbm, 121, rfl⟩
abbrev main_call4_cst_0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_v6 : Ref sig .tc := ⟨.hbm, 128, rfl⟩
abbrev main_call4_cst_1 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_v86 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result named.

  Every weakly fair execution of the kernel's @main terminates without a fault, its argument arrays unchanged, and its
  result array holding what the last boundary of the run holds there: `W12`, the memory as the sixth region leaves it —
  a fold from the launch memory through the host operations and the six regions' write-backs. What that array is as a
  function of the arguments is read off this fold region by region elsewhere.
-/
import proofs.«118235_j10385230922560_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, over the twelve segments of @main: the last thread state holds every unscoped buffer at `W12`, and the
    final memory is read against it at the result array and at each argument. -/
theorem run : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.RefOps.lean ====
/-
  The reference's host operations grouped into named functions of whole arrays, at any float instance: the edge lists
  with the self-loops appended (`src`, `dst`), the in-degree and its inverse square root (`deg`, `dis`), the
  per-edge weight `norm` = dis[src] · dis[dst], the gather–scale–scatter-add along the edges (`agg128`, `agg64`), the
  dense product, the bias and clamp, and the row-wise log-softmax; `result` composes the three layers.
  These are the reference's own operations, operand for operand: the reference's composed term is `result` of its
  arguments by unfolding the names.
-/
import proofs.«118235_j10385230922560_1_alg».proof.ReferenceIdeal
import proofs.«118235_j10385230922560_1_alg».proof.Proof.Gen.ReferenceIdeal
import Idealize.ShloMosaic.PureOps.Ideal

noncomputable section

namespace Cert.RefOps

open Cert.ReferenceIdeal Cert.ReferenceIdeal.Gen Idealize.ShloMosaic Idealize.ShloMosaic.TcCoe

variable {F : FTy → Type} [FloatOps F]

/-- Contents of a 32-bit integer array of shape `s`. -/
abbrev IBuf (F : FTy → Type) (s : Shape) : Type := (⟨s, .i32⟩ : BufTy).Contents (Elt F)
/-- Contents of an f32 array of shape `s`. -/
abbrev FBuf (F : FTy → Type) (s : Shape) : Type := (⟨s, .f32⟩ : BufTy).Contents (Elt F)

/-- Edge sources: row 0 of the edge list, then one self-loop per node. -/
def src (e : IBuf F S2x1600000) : IBuf F S1700000 :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)
/-- Edge targets: row 1 of the edge list, then one self-loop per node. -/
def dst (e : IBuf F S2x1600000) : IBuf F S1700000 :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)
/-- A negative node index counts from the end. -/
def wrap (s : IBuf F S1700000) : IBuf F S1700000 :=
  (select (cmpi .slt s (broadcastInDim S1700000 ![] bcast_S_S1700000 (constantI S_ 32 0#32))) (addi s (broadcastInDim S1700000 ![] bcast_S_S1700000 (constantI S_ 32 100000#32))) s)
/-- In-degree of every node: ones scatter-added at the edge targets. -/
def deg (e : IBuf F S2x1600000) : FBuf F S100000 :=
  (Host.scatterAdd scatter_S100000_S1700000x1_S1700000_n_0_0_1 (broadcastInDim S100000 ![] bcast_S_S100000 (constant S_ .f32 0x00000000#32)) (broadcastInDim S1700000x1 ![0] bcast_S1700000_S1700000x1_0 (dst e)) (broadcastInDim S1700000 ![] bcast_S_S1700000 (constant S_ .f32 0x3F800000#32)))
/-- deg^(-1/2) where the degree is positive, 0 elsewhere. -/
def dis (e : IBuf F S2x1600000) : FBuf F S100000 :=
  (select (cmpf (F := F) .ogt (deg e) (broadcastInDim S100000 ![] bcast_S_S100000 (constant S_ .f32 0x00000000#32))) (Host.rsqrt (maximumf (deg e) (broadcastInDim S100000 ![] bcast_S_S100000 (constant S_ .f32 0x2B8CBCCC#32)))) (broadcastInDim S100000 ![] bcast_S_S100000 (id (constant S_ .f32 0x00000000#32))))
/-- The weight of every edge: dis at its source times dis at its target. -/
def norm (e : IBuf F S2x1600000) : FBuf F S1700000 :=
  (mulf (Host.gather gather_S100000_S1700000x1_S1700000_n_0_n_n_0_1_1 (dis e) (broadcastInDim S1700000x1 ![0] bcast_S1700000_S1700000x1_0 (wrap (src e)))) (Host.gather gather_S100000_S1700000x1_S1700000_n_0_n_n_0_1_1 (dis e) (broadcastInDim S1700000x1 ![0] bcast_S1700000_S1700000x1_0 (wrap (dst e)))))
/-- Rows of `h` gathered at the edge sources, scaled by the edge weights and summed at the edge targets (128 columns). -/
def agg128 (e : IBuf F S2x1600000) (h : FBuf F S100000x128) : FBuf F S100000x128 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dst e)) (mulf (Host.gather gather_S100000x128_S1700000x1_S1700000x128_1_0_n_n_0_1_1128 h (broadcastInDim S1700000x1 ![0] bcast_S1700000_S1700000x1_0 (wrap (src e)))) (broadcastInDim S1700000x128 ![0, 1] bcast_S1700000x1_S1700000x128_0_1 (broadcastInDim S1700000x1 ![0] bcast_S1700000_S1700000x1_0 (norm e)))))
/-- The same with 64 columns. -/
def agg64 (e : IBuf F S2x1600000) (h : FBuf F S100000x64) : FBuf F S100000x64 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (dst e)) (mulf (Host.gather gather_S100000x64_S1700000x1_S1700000x64_1_0_n_n_0_1_164 h (broadcastInDim S1700000x1 ![0] bcast_S1700000_S1700000x1_0 (wrap (src e)))) (broadcastInDim S1700000x64 ![0, 1] bcast_S1700000x1_S1700000x64_0_1 (broadcastInDim S1700000x1 ![0] bcast_S1700000_S1700000x1_0 (norm e)))))
/-- Node features times a 128 × 128 weight matrix. -/
def mm128 (x : FBuf F S100000x128) (w : FBuf F S128x128) : FBuf F S100000x128 :=
  (Host.dotGeneral dot_S100000x128_S128x128_S100000x128_1_0_0_1_n_n none x w)
/-- Node features times a 128 × 64 weight matrix. -/
def mm64 (x : FBuf F S100000x128) (w : FBuf F S128x64) : FBuf F S100000x64 :=
  (Host.dotGeneral dot_S100000x128_S128x64_S100000x64_1_0_0_1_n_n none x w)
/-- Add the bias to every row and clamp at zero (128 columns). -/
def biasRelu128 (a : FBuf F S100000x128) (b : FBuf F S128) : FBuf F S100000x128 :=
  (maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32)))
/-- Add the bias to every row and clamp at zero (64 columns). -/
def biasRelu64 (a : FBuf F S100000x64) (b : FBuf F S64) : FBuf F S100000x64 :=
  (maximumf (addf a (broadcastInDim S100000x64 ![0, 1] bcast_S1x64_S100000x64_0_1 (broadcastInDim S1x64 ![1] bcast_S64_S1x64_1 b))) (broadcastInDim S100000x64 ![] bcast_S_S100000x64 (constant S_ .f32 0x00000000#32)))
/-- Row-wise log-softmax as the reference spells it. -/
def logSoftmax (z : FBuf F S100000x64) : FBuf F S100000x64 :=
  subf (subf z (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x64_S100000_d1 h_S_))))) (broadcastInDim S100000x64 ![0, 1] bcast_S100000x1_S100000x64_0_1 (Host.log (broadcastInDim S100000x1 ![0] bcast_S100000_S100000x1_0 (Host.reduceAdd (Host.exp (subf z (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x64_S100000_d1 h_S_)))))) (constant S_ .f32 0x00000000#32) reducesTo_S100000x64_S100000_d1 h_S_))))
/-- One hidden layer. -/
def layer128 (e : IBuf F S2x1600000) (x : FBuf F S100000x128) (w : FBuf F S128x128) (b : FBuf F S128) : FBuf F S100000x128 :=
  biasRelu128 (agg128 e (mm128 x w)) b
/-- The output layer before the log-softmax. -/
def layer64 (e : IBuf F S2x1600000) (x : FBuf F S100000x128) (w : FBuf F S128x64) (b : FBuf F S64) : FBuf F S100000x64 :=
  biasRelu64 (agg64 e (mm64 x w)) b
/-- The whole network. -/
def result (x : FBuf F S100000x128) (e : IBuf F S2x1600000) (w0 : FBuf F S128x128) (b0 : FBuf F S128)
    (w1 : FBuf F S128x128) (b1 : FBuf F S128) (w2 : FBuf F S128x64) (b2 : FBuf F S64) : FBuf F S100000x64 :=
  logSoftmax (layer64 e (layer128 e (layer128 e x w0 b0) w1 b1) w2 b2)

end Cert.RefOps

end
-- ==== Proof.Layers.lean ====
/-
  One host stretch of either program, as a function of the arrays it reads: given the edge sources `s`, the edge targets
  `d` and the edge weights `nrm` (whatever computed them), gather the rows of `h` at the sources, scale each by its edge's
  weight, and sum them at the targets. With the reference's own `src`, `dst`, `norm` of the edge list this is its
  `agg128` / `agg64`, by unfolding.
-/
import proofs.«118235_j10385230922560_1_alg».proof.Proof.RefOps

noncomputable section

namespace Cert.RefOps

open Cert.ReferenceIdeal Cert.ReferenceIdeal.Gen Idealize.ShloMosaic Idealize.ShloMosaic.TcCoe

variable {F : FTy → Type} [FloatOps F]

/-- Gather at `s`, scale by `nrm`, scatter-add at `d` (128 columns). -/
def aggOf128 (s d : IBuf F S1700000) (nrm : FBuf F S1700000) (h : FBuf F S100000x128) : FBuf F S100000x128 :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 nrm))))
/-- Gather at `s`, scale by `nrm`, scatter-add at `d` (64 columns). -/
def aggOf64 (s d : IBuf F S1700000) (nrm : FBuf F S1700000) (h : FBuf F S100000x64) : FBuf F S100000x64 :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 nrm))))

theorem agg128_eq (e : IBuf F S2x1600000) (h : FBuf F S100000x128) : agg128 e h = aggOf128 (src e) (dst e) (norm e) h := rfl
theorem agg64_eq (e : IBuf F S2x1600000) (h : FBuf F S100000x64) : agg64 e h = aggOf64 (src e) (dst e) (norm e) h := rfl

end Cert.RefOps

end
-- ==== Proof.LibTRefCast.lean ====
/-
  A typed reference carries its buffer's contents at the value's type along the equation between the two types; carrying
  a value to the buffer's type and back is the identity, whatever the proof of the equation.
-/
import Idealize.ShloMosaic.Lib.StableHlo

namespace Cert.Lib

open Idealize.ShloMosaic Idealize.ShloMosaic.StableHlo

/-- Contents moved to a typed reference's buffer type and back are unchanged. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.KernelHost.lean ====
/-
  The kernel program's host stretches read as functions of what they find in memory.

  Between a matmul region and the
  bias region that follows it, the host gathers the matmul's rows at the sources, scales them by the edge weights and
  sums them at the targets (`aggOf128` / `aggOf64` of the arrays found), and lays the bias vector out as one row.
  No stretch writes an argument array or an array an earlier stretch computed.
-/
import proofs.«118235_j10385230922560_1_alg».proof.Proof.Gen.KernelIdeal.Launch
import proofs.«118235_j10385230922560_1_alg».proof.Proof.Layers
import proofs.«118235_j10385230922560_1_alg».proof.Proof.LibTRefCast
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-! ## Between region 0 and region 1 -/

set_option maxHeartbeats 2000000 in
theorem stretch1_agg : after hostOps1 W (Proc.devRef .tc main_v45)
    = RefOps.aggOf128 (W (Proc.devRef .tc main_v3)) (W (Proc.devRef .tc main_v6)) (W (Proc.devRef .tc main_v31)) (W (Proc.devRef .tc main_v32)) := by
  after_results; try simp only [Cert.Lib.ofBuf_toBuf]
  rfl
set_option maxHeartbeats 2000000 in
theorem stretch1_bias : after hostOps1 W (Proc.devRef .tc main_v46) = shapeCast S1x128 (W (Proc.devRef .tc main_arg3)) shapeCasts_S128_S1x128 := by
  after_results; try simp only [Cert.Lib.ofBuf_toBuf]
  rfl
set_option maxHeartbeats 1000000 in
theorem stretch1_keep_v3 : after hostOps1 W (Proc.devRef .tc main_v3) = W (Proc.devRef .tc main_v3) := by after_results
set_option maxHeartbeats 1000000 in
theorem stretch1_keep_v6 : after hostOps1 W (Proc.devRef .tc main_v6) = W (Proc.devRef .tc main_v6) := by after_results
set_option maxHeartbeats 1000000 in
theorem stretch1_keep_v31 : after hostOps1 W (Proc.devRef .tc main_v31) = W (Proc.devRef .tc main_v31) := by after_results
set_option maxHeartbeats 1000000 in
theorem stretch1_keep_arg4 : after hostOps1 W (Proc.devRef .tc main_arg4) = W (Proc.devRef .tc main_arg4) := by after_results
set_option maxHeartbeats 1000000 in
theorem stretch1_keep_arg5 : after hostOps1 W (Proc.devRef .tc main_arg5) = W (Proc.devRef .tc main_arg5) := by after_results
set_option maxHeartbeats 1000000 in
theorem stretch1_keep_arg6 : after hostOps1 W (Proc.devRef .tc main_arg6) = W (Proc.devRef .tc main_arg6) := by after_results
set_option maxHeartbeats 1000000 in
theorem stretch1_keep_arg7 : after hostOps1 W (Proc.devRef .tc main_arg7) = W (Proc.devRef .tc main_arg7) := by after_results

/-! ## Between region 2 and region 3 -/

set_option maxHeartbeats 2000000 in
theorem stretch3_agg : after hostOps3 W (Proc.devRef .tc main_v61)
    = RefOps.aggOf128 (W (Proc.devRef .tc main_v3)) (W (Proc.devRef .tc main_v6)) (W (Proc.devRef .tc main_v31)) (W (Proc.devRef .tc main_v48)) := by
  after_results; try simp only [Cert.Lib.ofBuf_toBuf]
  rfl
set_option maxHeartbeats 2000000 in
theorem stretch3_bias : after hostOps3 W (Proc.devRef .tc main_v62) = shapeCast S1x128 (W (Proc.devRef .tc main_arg5)) shapeCasts_S128_S1x128 := by
  after_results; try simp only [Cert.Lib.ofBuf_toBuf]
  rfl
set_option maxHeartbeats 1000000 in
theorem stretch3_keep_v3 : after hostOps3 W (Proc.devRef .tc main_v3) = W (Proc.devRef .tc main_v3) := by after_results
set_option maxHeartbeats 1000000 in
theorem stretch3_keep_v6 : after hostOps3 W (Proc.devRef .tc main_v6) = W (Proc.devRef .tc main_v6) := by after_results
set_option maxHeartbeats 1000000 in
theorem stretch3_keep_v31 : after hostOps3 W (Proc.devRef .tc main_v31) = W (Proc.devRef .tc main_v31) := by after_results
set_option maxHeartbeats 1000000 in
theorem stretch3_keep_arg6 : after hostOps3 W (Proc.devRef .tc main_arg6) = W (Proc.devRef .tc main_arg6) := by after_results
set_option maxHeartbeats 1000000 in
theorem stretch3_keep_arg7 : after hostOps3 W (Proc.devRef .tc main_arg7) = W (Proc.devRef .tc main_arg7) := by after_results

/-! ## Between region 4 and region 5 -/

set_option maxHeartbeats 2000000 in
theorem stretch5_agg : after hostOps5 W (Proc.devRef .tc main_v77)
    = RefOps.aggOf64 (W (Proc.devRef .tc main_v3)) (W (Proc.devRef .tc main_v6)) (W (Proc.devRef .tc main_v31)) (W (Proc.devRef .tc main_v64)) := by
  after_results; try simp only [Cert.Lib.ofBuf_toBuf]
  rfl
set_option maxHeartbeats 2000000 in
theorem stretch5_bias : after hostOps5 W (Proc.devRef .tc main_v78) = shapeCast S1x64 (W (Proc.devRef .tc main_arg7)) shapeCasts_S64_S1x64 := by
  after_results; try simp only [Cert.Lib.ofBuf_toBuf]
  rfl

end Cert.KernelIdeal.HostValue

end
-- ==== Proof.KernelPrefix.lean ====
/-
  The kernel program's host operations before its first region, read as functions of the edge list they find: the edge
  sources and targets with the self-loops appended, and the edge weights (the product of the inverse square roots of the
  degrees at an edge's two ends) are the reference's `src`, `dst`, `norm` — the same operations, operand for operand.
-/
import proofs.«118235_j10385230922560_1_alg».proof.Proof.Gen.KernelIdeal.Launch
import proofs.«118235_j10385230922560_1_alg».proof.Proof.Layers
import proofs.«118235_j10385230922560_1_alg».proof.Proof.LibTRefCast
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

set_option maxHeartbeats 4000000 in
theorem prefix_src : after hostOps0_2 (after hostOps0_1 (after hostOps0 W)) (Proc.devRef .tc main_v3) = RefOps.src (W (Proc.devRef .tc main_arg1)) := by
  after_results; try simp only [Cert.Lib.ofBuf_toBuf]
  rfl
set_option maxHeartbeats 4000000 in
theorem prefix_dst : after hostOps0_2 (after hostOps0_1 (after hostOps0 W)) (Proc.devRef .tc main_v6) = RefOps.dst (W (Proc.devRef .tc main_arg1)) := by
  after_results; try simp only [Cert.Lib.ofBuf_toBuf]
  rfl
set_option maxHeartbeats 4000000 in
theorem prefix_norm : after hostOps0_2 (after hostOps0_1 (after hostOps0 W)) (Proc.devRef .tc main_v31) = RefOps.norm (W (Proc.devRef .tc main_arg1)) := by
  after_results; try simp only [Cert.Lib.ofBuf_toBuf]
  rfl
set_option maxHeartbeats 2000000 in
theorem prefix_keep_arg0 : after hostOps0_2 (after hostOps0_1 (after hostOps0 W)) (Proc.devRef .tc main_arg0) = W (Proc.devRef .tc main_arg0) := by after_results
set_option maxHeartbeats 2000000 in
theorem prefix_keep_arg2 : after hostOps0_2 (after hostOps0_1 (after hostOps0 W)) (Proc.devRef .tc main_arg2) = W (Proc.devRef .tc main_arg2) := by after_results
set_option maxHeartbeats 2000000 in
theorem prefix_keep_arg3 : after hostOps0_2 (after hostOps0_1 (after hostOps0 W)) (Proc.devRef .tc main_arg3) = W (Proc.devRef .tc main_arg3) := by after_results
set_option maxHeartbeats 2000000 in
theorem prefix_keep_arg4 : after hostOps0_2 (after hostOps0_1 (after hostOps0 W)) (Proc.devRef .tc main_arg4) = W (Proc.devRef .tc main_arg4) := by after_results
set_option maxHeartbeats 2000000 in
theorem prefix_keep_arg5 : after hostOps0_2 (after hostOps0_1 (after hostOps0 W)) (Proc.devRef .tc main_arg5) = W (Proc.devRef .tc main_arg5) := by after_results
set_option maxHeartbeats 2000000 in
theorem prefix_keep_arg6 : after hostOps0_2 (after hostOps0_1 (after hostOps0 W)) (Proc.devRef .tc main_arg6) = W (Proc.devRef .tc main_arg6) := by after_results
set_option maxHeartbeats 2000000 in
theorem prefix_keep_arg7 : after hostOps0_2 (after hostOps0_1 (after hostOps0 W)) (Proc.devRef .tc main_arg7) = W (Proc.devRef .tc main_arg7) := by after_results

end Cert.KernelIdeal.HostValue

end
-- ==== Proof.Spec.lean ====
/-
  The mathematics both programs compute, stated once over arrays of extended reals, index by index.

  A graph-convolution layer multiplies the node features by a weight matrix (`matProd`: entry (r, q) is the sum over l of
  x(r, l) · w(l, q)), gathers and re-sums the rows along the edges (an operation both programs perform by the same host
  operations, never opened here), adds a bias row to every row and clamps at zero (`biasRelu`); the last layer ends in a
  row-wise log-softmax (`logSoftmax`: subtract the row's maximum, then the logarithm of the row's sum of exponentials).
-/
import Idealize.ShloMosaic.PureOps.Ideal
import Idealize.ShloMosaic.Lib.ValueIdx

noncomputable section

namespace Cert.Spec

open Idealize.ShloMosaic Idealize.ShloMosaic.ValueIdx

/-- An `n × k` array of extended reals. -/
abbrev Arr2 (n k : Nat) : Type := (⟨2, ![n, k]⟩ : Shape).Idx → EReal

/-- The matrix product: entry (r, q) is the sum over l of x(r, l) · w(l, q). -/
def matProd {n k j : Nat} (x : Arr2 n k) (w : Arr2 k j) : Arr2 n j :=
  fun i => ∑ l : Fin k, x (ix2 (i 0) l) * w (ix2 l (i 1))

/-- A vector of length k laid out as the one row of a 1 × k array. -/
def asRow {k : Nat} (b : (⟨1, ![k]⟩ : Shape).Idx → EReal) : Arr2 1 k := fun i => b (ix1 (i 1))

/-- Add the row `b` to every row of `a`, then clamp below at zero. -/
def biasRelu {n k : Nat} (a : Arr2 n k) (b : Arr2 1 k) : Arr2 n k :=
  fun i => max (a i + b (ix2 0 (i 1))) 0

/-- The largest entry of row `r` (−∞ bounds it from below). -/
def rowMax {n k : Nat} (z : Arr2 n k) (r : Fin n) : EReal :=
  (Finset.univ : Finset (Fin k)).fold max ⊥ fun q => z (ix2 r q)

/-- Row-wise log-softmax: each entry minus its row's maximum, minus the logarithm of the row's sum of the
    exponentials of those differences. -/
def logSoftmax {n k : Nat} (z : Arr2 n k) : Arr2 n k :=
  fun i => (z i - rowMax z (i 0)) - Ideal.log (∑ q : Fin k, Ideal.exp (z (ix2 (i 0) q) - rowMax z (i 0)))

end Cert.Spec

end
-- ==== Proof.RegionMatmul0.lean ====
/-
  Region 0 multiplies a 100000 × 128 array by a 128 × 128 weight matrix, ten thousand rows at a time: each grid point
  loads its block of rows and the whole weight matrix, and stores the block's product. Read at the extended reals, the
  stored entry (p, q) of a block is the sum over l of block(p, l) · w(l, q); a block's row p is row t · 10000 + p of the
  array, so every point writes its block of ONE function of the two arrays, the matrix product, and the ten blocks tile
  the output.
-/
import proofs.«118235_j10385230922560_1_alg».proof.Proof.Gen.KernelIdeal.Frame
import proofs.«118235_j10385230922560_1_alg».proof.Proof.Spec
import Idealize.ShloMosaic.Lib.ValueIdx
import Idealize.ShloMosaic.Lib.Pipeline.Value
import Idealize.ShloMosaic.PureOps.Ideal.Laws

noncomputable section
namespace Cert.KernelIdeal.Region0
open Cert.KernelIdeal Cert.KernelIdeal.Gen Idealize.ShloMosaic Idealize.ShloMosaic.TcCoe Idealize.SL.Sem Idealize.ShloMosaic.ValueIdx
open Idealize.ShloMosaic.Pipeline (Dat Cfg Window)
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## The product of a block, entry by entry -/

/-- The left operand's row is the output's row … -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and its column the contraction coordinate. -/
theorem lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- The right operand's row is the contraction coordinate … -/
theorem rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
/-- … and its column the output's column. -/
theorem rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- At the l-th contraction position the left operand is read at (p, l) … -/
theorem lhs_at (p : Fin 10000) (q : Fin 128) (l : Fin 128) :
    dot_S10000x128_S128x128_S10000x128_1_0_0_1_n_n.lhsIdx (ix2 p q) ((contrEquiv1 dot_S10000x128_S128x128_S10000x128_1_0_0_1_n_n 128 rfl rfl).symm l) = ix2 p l :=
  funext fun a => Fin.ext (by
    have hl := contrEquiv1_symm_val dot_S10000x128_S128x128_S10000x128_1_0_0_1_n_n 128 rfl rfl l
    match a with
    | ⟨0, _⟩ => exact lhs_row _ _
    | ⟨1, _⟩ => exact (lhs_col _ _).trans hl)
/-- … and the right operand at (l, q). -/
theorem rhs_at (p : Fin 10000) (q : Fin 128) (l : Fin 128) :
    dot_S10000x128_S128x128_S10000x128_1_0_0_1_n_n.rhsIdx (ix2 p q) ((contrEquiv1 dot_S10000x128_S128x128_S10000x128_1_0_0_1_n_n 128 rfl rfl).symm l) = ix2 l q :=
  funext fun a => Fin.ext (by
    have hl := contrEquiv1_symm_val dot_S10000x128_S128x128_S10000x128_1_0_0_1_n_n 128 rfl rfl l
    match a with
    | ⟨0, _⟩ => exact (rhs_row _ _).trans hl
    | ⟨1, _⟩ => exact rhs_col _ _)

/-- The stored value at (p, q): the sum over l of the loaded block at (p, l) times the weights at (l, q) (the format
    changes are the identity on extended reals, and the accumulator the product is added to is zero). -/
theorem pay_apply (x0 : Vec Ideal S10000x128 .f32) (x1 : Vec Ideal S128x128 .f32) (p : Fin 10000) (q : Fin 128) :
    k0_pay1 (F := Ideal) x0 x1 (ix2 p q) = ∑ l : Fin 128, x0 (ix2 p l) * x1 (ix2 l q) := by
  unfold k0_pay1
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun l _ => ?_
  rw [lhs_at p q l, rhs_at p q l]
  rfl

/-! ## Where a block sits in its array -/

/-- The printed index maps, decided over the ten points: the row blocks of the input and of the output are both the
    point's number, the weight matrix is one block, and nothing is cut along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input's block at a point is its array read where the block sits … -/
theorem iblk_in (t : Fin cfg0.N) (y : S10000x128.Idx) :
    iblk0 (F := Ideal) V c 0 t y = V c main_arg0 (((cfg0.win 0).blk t).view.emb y) := rfl
/-- … and so is the weights' one block. -/
theorem iblk_w (t : Fin cfg0.N) (y : S128x128.Idx) :
    iblk0 (F := Ideal) V c 1 t y = V c main_arg2 (((cfg0.win 1).blk t).view.emb y) := rfl

/-- Entry (p, l) of the input's block at point t is the array's entry in the row of the output block's entry (p, q), column l. -/
theorem emb_in (t : Fin cfg0.N) (p : Fin 10000) (q : Fin 128) (l : Fin 128) :
    (((cfg0.win 0).blk t).view.emb (ix2 p l) : S100000x128.Idx)
      = ix2 ((((cfg0.win 2).blk t).view.emb (ix2 p q) : S100000x128.Idx) 0) l := by
  obtain ⟨e0, e1, -, -, e4, -⟩ := idx_facts t
  funext a; apply Fin.ext
  match a with
  | ⟨0, _⟩ => show win0_0.index t (0 : Fin 2) * 10000 + 1 * p.val = win0_2.index t (0 : Fin 2) * 10000 + 1 * p.val; omega
  | ⟨1, _⟩ => show win0_0.index t (1 : Fin 2) * 128 + 1 * l.val = l.val; omega

/-- Entry (l, q) of the weights' one block is the weights' entry (l, column of the output block's entry (p, q)). -/
theorem emb_w (t : Fin cfg0.N) (p : Fin 10000) (q : Fin 128) (l : Fin 128) :
    (((cfg0.win 1).blk t).view.emb (ix2 l q) : S128x128.Idx)
      = ix2 l ((((cfg0.win 2).blk t).view.emb (ix2 p q) : S100000x128.Idx) 1) := by
  obtain ⟨-, -, e2, e3, -, e5⟩ := idx_facts t
  funext a; apply Fin.ext
  match a with
  | ⟨0, _⟩ => show win0_1.index t (0 : Fin 2) * 128 + 1 * l.val = l.val; omega
  | ⟨1, _⟩ => show win0_1.index t (1 : Fin 2) * 128 + 1 * q.val = win0_2.index t (1 : Fin 2) * 128 + 1 * q.val; omega

/-! ## What a point writes back -/

/-- Point t writes back block t of the matrix product of the two arrays as the region finds them. -/
theorem flushed_eq (t : Fin cfg0.N) :
    (dat0 (F := Ideal) V c).flushed 2 t
      = ((cfg0.win 2).blk t).view.read (Elt Ideal) (Spec.matProd (n := 100000) (k := 128) (j := 128) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q)
    = Spec.matProd (n := 100000) (k := 128) (j := 128) (V c main_arg0) (V c main_arg2) (((cfg0.win 2).blk t).view.emb (ix2 p q))
  refine (pay_apply (iblk0 V c 0 t) (iblk0 V c 1 t) p q).trans ?_
  unfold Spec.matProd
  refine Finset.sum_congr rfl fun l _ => ?_
  rw [iblk_in V c t (ix2 p l), iblk_w V c t (ix2 l q), emb_in t p q l, emb_w t p q l]
  rfl

/-! ## The blocks tile the output -/

/-- An index of the output is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Row r of the output is in the block of point r / 10000, and every point writes its block back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region the output array is the matrix product of the two input arrays. -/
theorem final0 : (dat0 (F := Ideal) V c).arrAt 2 cfg0.N = Spec.matProd (n := 100000) (k := 128) (j := 128) (V c main_arg0) (V c main_arg2) :=
  (dat0 (F := Ideal) V c).arrAt_eq_of_cover 2 _ (fun t _ => flushed_eq V c t) (cover)

end Cert.KernelIdeal.Region0
end
-- ==== Proof.RegionMatmul2.lean ====
/-
  Region 2 multiplies a 100000 × 128 array by a 128 × 128 weight matrix, ten thousand rows at a time: each grid point
  loads its block of rows and the whole weight matrix, and stores the block's product. Read at the extended reals, the
  stored entry (p, q) of a block is the sum over l of block(p, l) · w(l, q); a block's row p is row t · 10000 + p of the
  array, so every point writes its block of ONE function of the two arrays, the matrix product, and the ten blocks tile
  the output.
-/
import proofs.«118235_j10385230922560_1_alg».proof.Proof.Gen.KernelIdeal.Frame
import proofs.«118235_j10385230922560_1_alg».proof.Proof.Spec
import Idealize.ShloMosaic.Lib.ValueIdx
import Idealize.ShloMosaic.Lib.Pipeline.Value
import Idealize.ShloMosaic.PureOps.Ideal.Laws

noncomputable section
namespace Cert.KernelIdeal.Region2
open Cert.KernelIdeal Cert.KernelIdeal.Gen Idealize.ShloMosaic Idealize.ShloMosaic.TcCoe Idealize.SL.Sem Idealize.ShloMosaic.ValueIdx
open Idealize.ShloMosaic.Pipeline (Dat Cfg Window)
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## The product of a block, entry by entry -/

/-- The left operand's row is the output's row … -/
theorem lhs_row (i : S10000x128.Idx) (r : dot_S10000x128_S128x128_S10000x128_1_0_0_1_n_n.contr.Idx) :
    (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and its column the contraction coordinate. -/
theorem lhs_col (i : S10000x128.Idx) (r : dot_S10000x128_S128x128_S10000x128_1_0_0_1_n_n.contr.Idx) :
    (dot_S10000x128_S128x128_S10000x128_1_0_0_1_n_n.lhsIdx i r 1).val = (r ⟨0, by decide⟩).val :=
  dot_S10000x128_S128x128_S10000x128_1_0_0_1_n_n.lhsIdx_val_of_single rfl i r
/-- The right operand's row is the contraction coordinate … -/
theorem rhs_row (i : S10000x128.Idx) (r : dot_S10000x128_S128x128_S10000x128_1_0_0_1_n_n.contr.Idx) :
    (dot_S10000x128_S128x128_S10000x128_1_0_0_1_n_n.rhsIdx i r 0).val = (r ⟨0, by decide⟩).val :=
  dot_S10000x128_S128x128_S10000x128_1_0_0_1_n_n.rhsIdx_val_of_single rfl i r
/-- … and its column the output's column. -/
theorem rhs_col (i : S10000x128.Idx) (r : dot_S10000x128_S128x128_S10000x128_1_0_0_1_n_n.contr.Idx) :
    (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- At the l-th contraction position the left operand is read at (p, l) … -/
theorem lhs_at (p : Fin 10000) (q : Fin 128) (l : Fin 128) :
    dot_S10000x128_S128x128_S10000x128_1_0_0_1_n_n.lhsIdx (ix2 p q) ((contrEquiv1 dot_S10000x128_S128x128_S10000x128_1_0_0_1_n_n 128 rfl rfl).symm l) = ix2 p l :=
  funext fun a => Fin.ext (by
    have hl := contrEquiv1_symm_val dot_S10000x128_S128x128_S10000x128_1_0_0_1_n_n 128 rfl rfl l
    match a with
    | ⟨0, _⟩ => exact lhs_row _ _
    | ⟨1, _⟩ => exact (lhs_col _ _).trans hl)
/-- … and the right operand at (l, q). -/
theorem rhs_at (p : Fin 10000) (q : Fin 128) (l : Fin 128) :
    dot_S10000x128_S128x128_S10000x128_1_0_0_1_n_n.rhsIdx (ix2 p q) ((contrEquiv1 dot_S10000x128_S128x128_S10000x128_1_0_0_1_n_n 128 rfl rfl).symm l) = ix2 l q :=
  funext fun a => Fin.ext (by
    have hl := contrEquiv1_symm_val dot_S10000x128_S128x128_S10000x128_1_0_0_1_n_n 128 rfl rfl l
    match a with
    | ⟨0, _⟩ => exact (rhs_row _ _).trans hl
    | ⟨1, _⟩ => exact rhs_col _ _)

/-- The stored value at (p, q): the sum over l of the loaded block at (p, l) times the weights at (l, q) (the format
    changes are the identity on extended reals, a cast to the same shape changes nothing, and the accumulator the product is added to is zero). -/
theorem pay_apply (x0 : Vec Ideal S10000x128 .f32) (x1 : Vec Ideal S128x128 .f32) (p : Fin 10000) (q : Fin 128) :
    k2_pay1 (F := Ideal) x0 x1 (ix2 p q) = ∑ l : Fin 128, x0 (ix2 p l) * x1 (ix2 l q) := by
  unfold k2_pay1
  simp only [shapeCast_self]
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun l _ => ?_
  rw [lhs_at p q l, rhs_at p q l]
  rfl

/-! ## Where a block sits in its array -/

/-- The printed index maps, decided over the ten points: the row blocks of the input and of the output are both the
    point's number, the weight matrix is one block, and nothing is cut along the columns. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input's block at a point is its array read where the block sits … -/
theorem iblk_in (t : Fin cfg2.N) (y : S10000x128.Idx) :
    iblk2 (F := Ideal) V c 0 t y = V c main_v47 (((cfg2.win 0).blk t).view.emb y) := rfl
/-- … and so is the weights' one block. -/
theorem iblk_w (t : Fin cfg2.N) (y : S128x128.Idx) :
    iblk2 (F := Ideal) V c 1 t y = V c main_arg4 (((cfg2.win 1).blk t).view.emb y) := rfl

/-- Entry (p, l) of the input's block at point t is the array's entry in the row of the output block's entry (p, q), column l. -/
theorem emb_in (t : Fin cfg2.N) (p : Fin 10000) (q : Fin 128) (l : Fin 128) :
    (((cfg2.win 0).blk t).view.emb (ix2 p l) : S100000x128.Idx)
      = ix2 ((((cfg2.win 2).blk t).view.emb (ix2 p q) : S100000x128.Idx) 0) l := by
  obtain ⟨e0, e1, -, -, e4, -⟩ := idx_facts t
  funext a; apply Fin.ext
  match a with
  | ⟨0, _⟩ => show win2_0.index t (0 : Fin 2) * 10000 + 1 * p.val = win2_2.index t (0 : Fin 2) * 10000 + 1 * p.val; omega
  | ⟨1, _⟩ => show win2_0.index t (1 : Fin 2) * 128 + 1 * l.val = l.val; omega

/-- Entry (l, q) of the weights' one block is the weights' entry (l, column of the output block's entry (p, q)). -/
theorem emb_w (t : Fin cfg2.N) (p : Fin 10000) (q : Fin 128) (l : Fin 128) :
    (((cfg2.win 1).blk t).view.emb (ix2 l q) : S128x128.Idx)
      = ix2 l ((((cfg2.win 2).blk t).view.emb (ix2 p q) : S100000x128.Idx) 1) := by
  obtain ⟨-, -, e2, e3, -, e5⟩ := idx_facts t
  funext a; apply Fin.ext
  match a with
  | ⟨0, _⟩ => show win2_1.index t (0 : Fin 2) * 128 + 1 * l.val = l.val; omega
  | ⟨1, _⟩ => show win2_1.index t (1 : Fin 2) * 128 + 1 * q.val = win2_2.index t (1 : Fin 2) * 128 + 1 * q.val; omega

/-! ## What a point writes back -/

/-- Point t writes back block t of the matrix product of the two arrays as the region finds them. -/
theorem flushed_eq (t : Fin cfg2.N) :
    (dat2 (F := Ideal) V c).flushed 2 t
      = ((cfg2.win 2).blk t).view.read (Elt Ideal) (Spec.matProd (n := 100000) (k := 128) (j := 128) (V c main_v47) (V c main_arg4)) := by
  show (cfg2.win 2).cut (grid2.coords t) ((dat2 (F := Ideal) V c).after 2 t) = _
  rw [after2_2]
  unfold out2_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (ix2 p q)
    = Spec.matProd (n := 100000) (k := 128) (j := 128) (V c main_v47) (V c main_arg4) (((cfg2.win 2).blk t).view.emb (ix2 p q))
  refine (pay_apply (iblk2 V c 0 t) (iblk2 V c 1 t) p q).trans ?_
  unfold Spec.matProd
  refine Finset.sum_congr rfl fun l _ => ?_
  rw [iblk_in V c t (ix2 p l), iblk_w V c t (ix2 l q), emb_in t p q l, emb_w t p q l]
  rfl

/-! ## The blocks tile the output -/

/-- An index of the output is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- Row r of the output is in the block of point r / 10000, and every point writes its block back. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region the output array is the matrix product of the two input arrays. -/
theorem final2 : (dat2 (F := Ideal) V c).arrAt 2 cfg2.N = Spec.matProd (n := 100000) (k := 128) (j := 128) (V c main_v47) (V c main_arg4) :=
  (dat2 (F := Ideal) V c).arrAt_eq_of_cover 2 _ (fun t _ => flushed_eq V c t) (cover)

end Cert.KernelIdeal.Region2
end
-- ==== Proof.RegionMatmul4.lean ====
/-
  Region 4 multiplies a 100000 × 128 array by a 128 × 64 weight matrix, ten thousand rows at a time: each grid point
  loads its block of rows and the whole weight matrix, and stores the block's product. Read at the extended reals, the
  stored entry (p, q) of a block is the sum over l of block(p, l) · w(l, q); a block's row p is row t · 10000 + p of the
  array, so every point writes its block of ONE function of the two arrays, the matrix product, and the ten blocks tile
  the output.
-/
import proofs.«118235_j10385230922560_1_alg».proof.Proof.Gen.KernelIdeal.Frame
import proofs.«118235_j10385230922560_1_alg».proof.Proof.Spec
import Idealize.ShloMosaic.Lib.ValueIdx
import Idealize.ShloMosaic.Lib.Pipeline.Value
import Idealize.ShloMosaic.PureOps.Ideal.Laws

noncomputable section
namespace Cert.KernelIdeal.Region4
open Cert.KernelIdeal Cert.KernelIdeal.Gen Idealize.ShloMosaic Idealize.ShloMosaic.TcCoe Idealize.SL.Sem Idealize.ShloMosaic.ValueIdx
open Idealize.ShloMosaic.Pipeline (Dat Cfg Window)
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## The product of a block, entry by entry -/

/-- The left operand's row is the output's row … -/
theorem lhs_row (i : S10000x64.Idx) (r : dot_S10000x128_S128x64_S10000x64_1_0_0_1_n_n.contr.Idx) :
    (dot_S10000x128_S128x64_S10000x64_1_0_0_1_n_n.lhsIdx i r 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- … and its column the contraction coordinate. -/
theorem lhs_col (i : S10000x64.Idx) (r : dot_S10000x128_S128x64_S10000x64_1_0_0_1_n_n.contr.Idx) :
    (dot_S10000x128_S128x64_S10000x64_1_0_0_1_n_n.lhsIdx i r 1).val = (r ⟨0, by decide⟩).val :=
  dot_S10000x128_S128x64_S10000x64_1_0_0_1_n_n.lhsIdx_val_of_single rfl i r
/-- The right operand's row is the contraction coordinate … -/
theorem rhs_row (i : S10000x64.Idx) (r : dot_S10000x128_S128x64_S10000x64_1_0_0_1_n_n.contr.Idx) :
    (dot_S10000x128_S128x64_S10000x64_1_0_0_1_n_n.rhsIdx i r 0).val = (r ⟨0, by decide⟩).val :=
  dot_S10000x128_S128x64_S10000x64_1_0_0_1_n_n.rhsIdx_val_of_single rfl i r
/-- … and its column the output's column. -/
theorem rhs_col (i : S10000x64.Idx) (r : dot_S10000x128_S128x64_S10000x64_1_0_0_1_n_n.contr.Idx) :
    (dot_S10000x128_S128x64_S10000x64_1_0_0_1_n_n.rhsIdx i r 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- At the l-th contraction position the left operand is read at (p, l) … -/
theorem lhs_at (p : Fin 10000) (q : Fin 64) (l : Fin 128) :
    dot_S10000x128_S128x64_S10000x64_1_0_0_1_n_n.lhsIdx (ix2 p q) ((contrEquiv1 dot_S10000x128_S128x64_S10000x64_1_0_0_1_n_n 128 rfl rfl).symm l) = ix2 p l :=
  funext fun a => Fin.ext (by
    have hl := contrEquiv1_symm_val dot_S10000x128_S128x64_S10000x64_1_0_0_1_n_n 128 rfl rfl l
    match a with
    | ⟨0, _⟩ => exact lhs_row _ _
    | ⟨1, _⟩ => exact (lhs_col _ _).trans hl)
/-- … and the right operand at (l, q). -/
theorem rhs_at (p : Fin 10000) (q : Fin 64) (l : Fin 128) :
    dot_S10000x128_S128x64_S10000x64_1_0_0_1_n_n.rhsIdx (ix2 p q) ((contrEquiv1 dot_S10000x128_S128x64_S10000x64_1_0_0_1_n_n 128 rfl rfl).symm l) = ix2 l q :=
  funext fun a => Fin.ext (by
    have hl := contrEquiv1_symm_val dot_S10000x128_S128x64_S10000x64_1_0_0_1_n_n 128 rfl rfl l
    match a with
    | ⟨0, _⟩ => exact (rhs_row _ _).trans hl
    | ⟨1, _⟩ => exact rhs_col _ _)

/-- The stored value at (p, q): the sum over l of the loaded block at (p, l) times the weights at (l, q) (the format
    changes are the identity on extended reals, a cast to the same shape changes nothing, and the accumulator the product is added to is zero). -/
theorem pay_apply (x0 : Vec Ideal S10000x128 .f32) (x1 : Vec Ideal S128x64 .f32) (p : Fin 10000) (q : Fin 64) :
    k4_pay1 (F := Ideal) x0 x1 (ix2 p q) = ∑ l : Fin 128, x0 (ix2 p l) * x1 (ix2 l q) := by
  unfold k4_pay1
  simp only [shapeCast_self]
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun l _ => ?_
  rw [lhs_at p q l, rhs_at p q l]
  rfl

/-! ## Where a block sits in its array -/

/-- The printed index maps, decided over the ten points: the row blocks of the input and of the output are both the
    point's number, the weight matrix is one block, and nothing is cut along the columns. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The input's block at a point is its array read where the block sits … -/
theorem iblk_in (t : Fin cfg4.N) (y : S10000x128.Idx) :
    iblk4 (F := Ideal) V c 0 t y = V c main_v63 (((cfg4.win 0).blk t).view.emb y) := rfl
/-- … and so is the weights' one block. -/
theorem iblk_w (t : Fin cfg4.N) (y : S128x64.Idx) :
    iblk4 (F := Ideal) V c 1 t y = V c main_arg6 (((cfg4.win 1).blk t).view.emb y) := rfl

/-- Entry (p, l) of the input's block at point t is the array's entry in the row of the output block's entry (p, q), column l. -/
theorem emb_in (t : Fin cfg4.N) (p : Fin 10000) (q : Fin 64) (l : Fin 128) :
    (((cfg4.win 0).blk t).view.emb (ix2 p l) : S100000x128.Idx)
      = ix2 ((((cfg4.win 2).blk t).view.emb (ix2 p q) : S100000x64.Idx) 0) l := by
  obtain ⟨e0, e1, -, -, e4, -⟩ := idx_facts t
  funext a; apply Fin.ext
  match a with
  | ⟨0, _⟩ => show win4_0.index t (0 : Fin 2) * 10000 + 1 * p.val = win4_2.index t (0 : Fin 2) * 10000 + 1 * p.val; omega
  | ⟨1, _⟩ => show win4_0.index t (1 : Fin 2) * 128 + 1 * l.val = l.val; omega

/-- Entry (l, q) of the weights' one block is the weights' entry (l, column of the output block's entry (p, q)). -/
theorem emb_w (t : Fin cfg4.N) (p : Fin 10000) (q : Fin 64) (l : Fin 128) :
    (((cfg4.win 1).blk t).view.emb (ix2 l q) : S128x64.Idx)
      = ix2 l ((((cfg4.win 2).blk t).view.emb (ix2 p q) : S100000x64.Idx) 1) := by
  obtain ⟨-, -, e2, e3, -, e5⟩ := idx_facts t
  funext a; apply Fin.ext
  match a with
  | ⟨0, _⟩ => show win4_1.index t (0 : Fin 2) * 128 + 1 * l.val = l.val; omega
  | ⟨1, _⟩ => show win4_1.index t (1 : Fin 2) * 64 + 1 * q.val = win4_2.index t (1 : Fin 2) * 64 + 1 * q.val; omega

/-! ## What a point writes back -/

/-- Point t writes back block t of the matrix product of the two arrays as the region finds them. -/
theorem flushed_eq (t : Fin cfg4.N) :
    (dat4 (F := Ideal) V c).flushed 2 t
      = ((cfg4.win 2).blk t).view.read (Elt Ideal) (Spec.matProd (n := 100000) (k := 128) (j := 64) (V c main_v63) (V c main_arg6)) := by
  show (cfg4.win 2).cut (grid4.coords t) ((dat4 (F := Ideal) V c).after 2 t) = _
  rw [after4_2]
  unfold out4_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q)
    = Spec.matProd (n := 100000) (k := 128) (j := 64) (V c main_v63) (V c main_arg6) (((cfg4.win 2).blk t).view.emb (ix2 p q))
  refine (pay_apply (iblk4 V c 0 t) (iblk4 V c 1 t) p q).trans ?_
  unfold Spec.matProd
  refine Finset.sum_congr rfl fun l _ => ?_
  rw [iblk_in V c t (ix2 p l), iblk_w V c t (ix2 l q), emb_in t p q l, emb_w t p q l]
  rfl

/-! ## The blocks tile the output -/

/-- An index of the output is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v64).slice (win4_2.rect t)).set ↔ _
  rw [View.set_slice_whole, Rect.mem_set_unit]
  exact Iff.rfl

/-- Row r of the output is in the block of point r / 10000, and every point writes its block back. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  obtain ⟨t, ht⟩ : ∃ t : Fin cfg4.N, t.val = (i 0).val / 10000 :=
    ⟨⟨(i 0).val / 10000, by show (i 0).val / 10000 < grid4.N; rw [hN]; omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region the output array is the matrix product of the two input arrays. -/
theorem final4 : (dat4 (F := Ideal) V c).arrAt 2 cfg4.N = Spec.matProd (n := 100000) (k := 128) (j := 64) (V c main_v63) (V c main_arg6) :=
  (dat4 (F := Ideal) V c).arrAt_eq_of_cover 2 _ (fun t _ => flushed_eq V c t) (cover)

end Cert.KernelIdeal.Region4
end
-- ==== Proof.RegionBias1.lean ====
/-
  Bias and clamp over the first hidden layer's rows, at the extended reals: what the region leaves in its output array.

  The region walks the 100000 × 128 array in 20 blocks of 5000 rows. At each block the body adds the one bias row to
  every row of the block and takes the maximum with zero, so the block written back is the block of one whole-array
  function: entry (r, q) is max (a(r, q) + b(0, q)) 0. Block t sits at rows 5000·t … 5000·t + 4999, the bias row is the
  same block at every point, and the 20 blocks tile the array: the array ends holding that function.
-/
import proofs.«118235_j10385230922560_1_alg».proof.Proof.Gen.KernelIdeal.Frame
import proofs.«118235_j10385230922560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Region1
open Cert.KernelIdeal Cert.KernelIdeal.Gen Idealize.ShloMosaic Idealize.ShloMosaic.TcCoe Idealize.SL.Sem Idealize.ShloMosaic.ValueIdx
open Idealize.ShloMosaic.Pipeline (Dat Cfg Window)
variable (V : (c : Dev nD) → (b : Ref sig .tc) → Buf (Elt Ideal) ((c : Thread nD τ).loc b)) (c : Dev nD)

/-- The zero offsets of a whole-block access, however they are spelt. -/
theorem zeros : (![0, 0] : Fin 2 → Nat) = fun _ => 0 := funext fun a => by fin_cases a <;> rfl

/-- The body's payload at entry (p, q) of the block: the casts to the same shape are identities, the row broadcast reads
    the one row at column q, and the splat of the zero word is the extended real 0. -/
theorem pay_apply (x0 : Vec Ideal S5000x128 .f32) (x1 : Vec Ideal S1x128 .f32) (p : Fin 5000) (q : Fin 128) :
    k1_pay1 (F := Ideal) x0 x1 (ix2 p q) = max ((x0 (ix2 p q) : EReal) + (x1 (ix2 (0 : Fin 1) q) : EReal)) 0 := by
  have e1 : shapeCast S5000x128 x0 shapeCasts_S5000x128_S5000x128 = x0 := shapeCast_self _ _
  have e2 : shapeCast S1x128 x1 shapeCasts_S1x128_S1x128 = x1 := shapeCast_self _ _
  have e3 : broadcastTo S5000x128 x1 broadcasts_S1x128_S5000x128 (ix2 p q) = x1 (ix2 (0 : Fin 1) q) :=
    broadcastTo_1b_ab_apply x1 broadcasts_S1x128_S5000x128 p q
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [e1, e2, e3, Ideal.ofBits_zero_f32]

/-- The block index maps, decided once over the 20 points: the input array and the output array move together, one
    block of rows per point; the bias row's block never moves. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT t WRITES BACK is block t of the whole-array function. -/
theorem flushed_eq (t : Fin cfg1.N) :
    (dat1 (F := Ideal) V c).flushed 2 t
      = ((cfg1.win 2).blk t).view.read (Elt Ideal) (Spec.biasRelu (n := 100000) (k := 128) (V c main_v45) (V c main_v46)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  obtain ⟨e0, e1, e2, e3, e4, e5⟩ := idx_facts t
  have ht : t.val < 20 := Nat.lt_of_lt_of_eq t.isLt N_1
  funext j
  show k1_pay1 (F := Ideal) (iblk1 V c 0 t) (iblk1 V c 1 t) j
    = Spec.biasRelu (n := 100000) (k := 128) (V c main_v45) (V c main_v46) (((cfg1.win 2).blk t).view.emb j)
  obtain ⟨p, q, rfl⟩ : ∃ (p : Fin 5000) (q : Fin 128), j = ix2 p q := ⟨j 0, j 1, eq_ix2 j⟩
  refine (pay_apply (iblk1 V c 0 t) (iblk1 V c 1 t) p q).trans ?_
  have hp : p.val < 5000 := p.isLt
  -- the row of the array that row p of block t is
  obtain ⟨r, hr⟩ : ∃ r : Fin 100000, r.val = t.val * 5000 + p.val := ⟨⟨t.val * 5000 + p.val, by omega⟩, rfl⟩
  -- where each block's entry sits in its array: block index × block size + the coordinate inside the block
  have h0 : ((cfg1.win 0).blk t).view.emb (ix2 p q) = ix2 r q := by
    funext a; apply Fin.ext
    match a with
    | ⟨0, _⟩ => show win1_0.index t (0 : Fin 2) * 5000 + 1 * p.val = r.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 p q) = ix2 r q := by
    funext a; apply Fin.ext
    match a with
    | ⟨0, _⟩ => show win1_2.index t (0 : Fin 2) * 5000 + 1 * p.val = r.val; omega
    | ⟨1, _⟩ => show win1_2.index t (1 : Fin 2) * 128 + 1 * q.val = q.val; omega
  -- each input block reads its array at those places
  have rd0 : @Eq EReal (iblk1 (F := Ideal) V c 0 t (ix2 p q)) (V c main_v45 (ix2 r q)) :=
    (show @Eq EReal (iblk1 (F := Ideal) V c 0 t (ix2 p q)) (V c main_v45 (((cfg1.win 0).blk t).view.emb (ix2 p q))) from rfl).trans
      (congrArg (V c main_v45) h0)
  have rd1 : @Eq EReal (iblk1 (F := Ideal) V c 1 t (ix2 (0 : Fin 1) q)) (V c main_v46 (ix2 (0 : Fin 1) q)) :=
    (show @Eq EReal (iblk1 (F := Ideal) V c 1 t (ix2 (0 : Fin 1) q)) (V c main_v46 (((cfg1.win 1).blk t).view.emb (ix2 (0 : Fin 1) q))) from rfl).trans
      (congrArg (V c main_v46) h1)
  exact (congrArg₂ (fun x y : EReal => max (x + y) 0) rd0 rd1).trans
    (congrArg (Spec.biasRelu (n := 100000) (k := 128) (V c main_v45) (V c main_v46)) h2).symm

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every entry of the array is in some point's block: row r is in block r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY after the region: every entry is the bias added and clamped at zero. -/
theorem final1 : (dat1 (F := Ideal) V c).arrAt 2 cfg1.N = Spec.biasRelu (n := 100000) (k := 128) (V c main_v45) (V c main_v46) :=
  (dat1 (F := Ideal) V c).arrAt_eq_of_cover 2 _ (fun t _ => flushed_eq V c t) cover

end Cert.KernelIdeal.Region1
end
-- ==== Proof.RegionBias3.lean ====
/-
  Bias and clamp over the second hidden layer's rows, at the extended reals: what the region leaves in its output array.

  The region walks the 100000 × 128 array in 20 blocks of 5000 rows. At each block the body adds the one bias row to
  every row of the block and takes the maximum with zero, so the block written back is the block of one whole-array
  function: entry (r, q) is max (a(r, q) + b(0, q)) 0. Block t sits at rows 5000·t … 5000·t + 4999, the bias row is the
  same block at every point, and the 20 blocks tile the array: the array ends holding that function.
-/
import proofs.«118235_j10385230922560_1_alg».proof.Proof.Gen.KernelIdeal.Frame
import proofs.«118235_j10385230922560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Region3
open Cert.KernelIdeal Cert.KernelIdeal.Gen Idealize.ShloMosaic Idealize.ShloMosaic.TcCoe Idealize.SL.Sem Idealize.ShloMosaic.ValueIdx
open Idealize.ShloMosaic.Pipeline (Dat Cfg Window)
variable (V : (c : Dev nD) → (b : Ref sig .tc) → Buf (Elt Ideal) ((c : Thread nD τ).loc b)) (c : Dev nD)

/-- The zero offsets of a whole-block access, however they are spelt. -/
theorem zeros : (![0, 0] : Fin 2 → Nat) = fun _ => 0 := funext fun a => by fin_cases a <;> rfl

/-- The body's payload at entry (p, q) of the block: the casts to the same shape are identities, the row broadcast reads
    the one row at column q, and the splat of the zero word is the extended real 0. -/
theorem pay_apply (x0 : Vec Ideal S5000x128 .f32) (x1 : Vec Ideal S1x128 .f32) (p : Fin 5000) (q : Fin 128) :
    k3_pay1 (F := Ideal) x0 x1 (ix2 p q) = max ((x0 (ix2 p q) : EReal) + (x1 (ix2 (0 : Fin 1) q) : EReal)) 0 := by
  have e1 : shapeCast S5000x128 x0 shapeCasts_S5000x128_S5000x128 = x0 := shapeCast_self _ _
  have e2 : shapeCast S1x128 x1 shapeCasts_S1x128_S1x128 = x1 := shapeCast_self _ _
  have e3 : broadcastTo S5000x128 x1 broadcasts_S1x128_S5000x128 (ix2 p q) = x1 (ix2 (0 : Fin 1) q) :=
    broadcastTo_1b_ab_apply x1 broadcasts_S1x128_S5000x128 p q
  show max (shapeCast S5000x128 x0 shapeCasts_S5000x128_S5000x128 (ix2 p q)
      + broadcastTo S5000x128 (shapeCast S1x128 x1 shapeCasts_S1x128_S1x128) broadcasts_S1x128_S5000x128 (ix2 p q))
      (Ideal.ofBits .f32 0x00000000#32) = _
  rw [e1, e2, e3, Ideal.ofBits_zero_f32]

/-- The block index maps, decided once over the 20 points: the input array and the output array move together, one
    block of rows per point; the bias row's block never moves. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- WHAT POINT t WRITES BACK is block t of the whole-array function. -/
theorem flushed_eq (t : Fin cfg3.N) :
    (dat3 (F := Ideal) V c).flushed 2 t
      = ((cfg3.win 2).blk t).view.read (Elt Ideal) (Spec.biasRelu (n := 100000) (k := 128) (V c main_v61) (V c main_v62)) := by
  show (cfg3.win 2).cut (grid3.coords t) ((dat3 V c).after 2 t) = _
  rw [after3_2]
  unfold out3_2
  rw [View.canon_unit_zero zeros]
  simp only [View.ld_unit_zero (S := S5000x128) zeros, View.ld_unit_zero (S := S1x128) zeros]
  obtain ⟨e0, e1, e2, e3, e4, e5⟩ := idx_facts t
  have ht : t.val < 20 := Nat.lt_of_lt_of_eq t.isLt N_3
  funext j
  show k3_pay1 (F := Ideal) (iblk3 V c 0 t) (iblk3 V c 1 t) j
    = Spec.biasRelu (n := 100000) (k := 128) (V c main_v61) (V c main_v62) (((cfg3.win 2).blk t).view.emb j)
  obtain ⟨p, q, rfl⟩ : ∃ (p : Fin 5000) (q : Fin 128), j = ix2 p q := ⟨j 0, j 1, eq_ix2 j⟩
  refine (pay_apply (iblk3 V c 0 t) (iblk3 V c 1 t) p q).trans ?_
  have hp : p.val < 5000 := p.isLt
  -- the row of the array that row p of block t is
  obtain ⟨r, hr⟩ : ∃ r : Fin 100000, r.val = t.val * 5000 + p.val := ⟨⟨t.val * 5000 + p.val, by omega⟩, rfl⟩
  -- where each block's entry sits in its array: block index × block size + the coordinate inside the block
  have h0 : ((cfg3.win 0).blk t).view.emb (ix2 p q) = ix2 r q := by
    funext a; apply Fin.ext
    match a with
    | ⟨0, _⟩ => show win3_0.index t (0 : Fin 2) * 5000 + 1 * p.val = r.val; omega
    | ⟨1, _⟩ => show win3_0.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have h2 : ((cfg3.win 2).blk t).view.emb (ix2 p q) = ix2 r q := by
    funext a; apply Fin.ext
    match a with
    | ⟨0, _⟩ => show win3_2.index t (0 : Fin 2) * 5000 + 1 * p.val = r.val; omega
    | ⟨1, _⟩ => show win3_2.index t (1 : Fin 2) * 128 + 1 * q.val = q.val; omega
  -- each input block reads its array at those places
  have rd0 : @Eq EReal (iblk3 (F := Ideal) V c 0 t (ix2 p q)) (V c main_v61 (ix2 r q)) :=
    (show @Eq EReal (iblk3 (F := Ideal) V c 0 t (ix2 p q)) (V c main_v61 (((cfg3.win 0).blk t).view.emb (ix2 p q))) from rfl).trans
      (congrArg (V c main_v61) h0)
  have rd1 : @Eq EReal (iblk3 (F := Ideal) V c 1 t (ix2 (0 : Fin 1) q)) (V c main_v62 (ix2 (0 : Fin 1) q)) :=
    (show @Eq EReal (iblk3 (F := Ideal) V c 1 t (ix2 (0 : Fin 1) q)) (V c main_v62 (((cfg3.win 1).blk t).view.emb (ix2 (0 : Fin 1) q))) from rfl).trans
      (congrArg (V c main_v62) h1)
  exact (congrArg₂ (fun x y : EReal => max (x + y) 0) rd0 rd1).trans
    (congrArg (Spec.biasRelu (n := 100000) (k := 128) (V c main_v61) (V c main_v62)) h2).symm

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every entry of the array is in some point's block: row r is in block r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 :=
    ⟨⟨(i 0).val / 5000, by show (i 0).val / 5000 < grid3.N; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE ARRAY after the region: every entry is the bias added and clamped at zero. -/
theorem final3 : (dat3 (F := Ideal) V c).arrAt 2 cfg3.N = Spec.biasRelu (n := 100000) (k := 128) (V c main_v61) (V c main_v62) :=
  (dat3 (F := Ideal) V c).arrAt_eq_of_cover 2 _ (fun t _ => flushed_eq V c t) cover

end Cert.KernelIdeal.Region3
end
-- ==== Proof.RefMatmul.lean ====
/-
  The reference's dense product is the matrix product of the specification: the host's dot, at the extended reals, read
  at an output index is the sum over its contraction index of the operands' products; with ONE contracting axis that
  index is its one coordinate, the left operand is read at (row, l) and the right one at (l, column).
-/
import proofs.«118235_j10385230922560_1_alg».proof.Proof.RefOps
import proofs.«118235_j10385230922560_1_alg».proof.Proof.Spec
import Idealize.ShloMosaic.Lib.ValueIdx
import Idealize.ShloMosaic.PureOps.Ideal.Laws

noncomputable section

namespace Cert.RefOps.Mat

open Cert.ReferenceIdeal Cert.ReferenceIdeal.Gen Idealize.ShloMosaic Idealize.ShloMosaic.TcCoe Idealize.ShloMosaic.ValueIdx

/-! ### The product with 128 columns -/

/-- The left operand's row is the output's row … -/
theorem lhs128_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- … and its column the contraction coordinate. -/
theorem lhs128_col (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row is the contraction coordinate … -/
theorem rhs128_row (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- … and its column the output's column. -/
theorem rhs128_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- At the l-th contraction position the left operand is read at (row of the output, l) … -/
theorem lhs128_at (i : S100000x128.Idx) (l : Fin 128) :
    dot_S100000x128_S128x128_S100000x128_1_0_0_1_n_n.lhsIdx i ((contrEquiv1 dot_S100000x128_S128x128_S100000x128_1_0_0_1_n_n 128 rfl rfl).symm l) = ix2 (i 0) l :=
  funext fun a => Fin.ext (by
    have hl := contrEquiv1_symm_val dot_S100000x128_S128x128_S100000x128_1_0_0_1_n_n 128 rfl rfl l
    match a with
    | ⟨0, _⟩ => exact lhs128_row _ _
    | ⟨1, _⟩ => exact (lhs128_col _ _).trans hl)
/-- … and the right operand at (l, column of the output). -/
theorem rhs128_at (i : S100000x128.Idx) (l : Fin 128) :
    dot_S100000x128_S128x128_S100000x128_1_0_0_1_n_n.rhsIdx i ((contrEquiv1 dot_S100000x128_S128x128_S100000x128_1_0_0_1_n_n 128 rfl rfl).symm l) = ix2 l (i 1) :=
  funext fun a => Fin.ext (by
    have hl := contrEquiv1_symm_val dot_S100000x128_S128x128_S100000x128_1_0_0_1_n_n 128 rfl rfl l
    match a with
    | ⟨0, _⟩ => exact (rhs128_row _ _).trans hl
    | ⟨1, _⟩ => exact rhs128_col _ _)

/-- Node features times a 128 × 128 weight matrix: entry (r, q) is the sum over l of x(r, l) · w(l, q). -/
theorem mm128_eq (x : FBuf Ideal S100000x128) (w : FBuf Ideal S128x128) :
    RefOps.mm128 (F := Ideal) x w = Spec.matProd (n := 100000) (k := 128) (j := 128) x w := by
  funext i
  unfold Spec.matProd
  simp only [RefOps.mm128, Host.dotGeneral]
  rw [Ideal.dotGeneral_apply, ← Equiv.sum_comp (contrEquiv1 dot_S100000x128_S128x128_S100000x128_1_0_0_1_n_n 128 rfl rfl).symm]
  refine Finset.sum_congr rfl fun l _ => ?_
  rw [lhs128_at i l, rhs128_at i l]
  rfl

/-! ### The product with 64 columns -/

/-- The left operand's row is the output's row … -/
theorem lhs64_row (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- … and its column the contraction coordinate. -/
theorem lhs64_col (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
/-- The right operand's row is the contraction coordinate … -/
theorem rhs64_row (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
/-- … and its column the output's column. -/
theorem rhs64_col (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- At the l-th contraction position the left operand is read at (row of the output, l) … -/
theorem lhs64_at (i : S100000x64.Idx) (l : Fin 128) :
    dot_S100000x128_S128x64_S100000x64_1_0_0_1_n_n.lhsIdx i ((contrEquiv1 dot_S100000x128_S128x64_S100000x64_1_0_0_1_n_n 128 rfl rfl).symm l) = ix2 (i 0) l :=
  funext fun a => Fin.ext (by
    have hl := contrEquiv1_symm_val dot_S100000x128_S128x64_S100000x64_1_0_0_1_n_n 128 rfl rfl l
    match a with
    | ⟨0, _⟩ => exact lhs64_row _ _
    | ⟨1, _⟩ => exact (lhs64_col _ _).trans hl)
/-- … and the right operand at (l, column of the output). -/
theorem rhs64_at (i : S100000x64.Idx) (l : Fin 128) :
    dot_S100000x128_S128x64_S100000x64_1_0_0_1_n_n.rhsIdx i ((contrEquiv1 dot_S100000x128_S128x64_S100000x64_1_0_0_1_n_n 128 rfl rfl).symm l) = ix2 l (i 1) :=
  funext fun a => Fin.ext (by
    have hl := contrEquiv1_symm_val dot_S100000x128_S128x64_S100000x64_1_0_0_1_n_n 128 rfl rfl l
    match a with
    | ⟨0, _⟩ => exact (rhs64_row _ _).trans hl
    | ⟨1, _⟩ => exact rhs64_col _ _)

/-- Node features times a 128 × 64 weight matrix: entry (r, q) is the sum over l of x(r, l) · w(l, q). -/
theorem mm64_eq (x : FBuf Ideal S100000x128) (w : FBuf Ideal S128x64) :
    RefOps.mm64 (F := Ideal) x w = Spec.matProd (n := 100000) (k := 128) (j := 64) x w := by
  funext i
  unfold Spec.matProd
  simp only [RefOps.mm64, Host.dotGeneral]
  rw [Ideal.dotGeneral_apply, ← Equiv.sum_comp (contrEquiv1 dot_S100000x128_S128x64_S100000x64_1_0_0_1_n_n 128 rfl rfl).symm]
  refine Finset.sum_congr rfl fun l _ => ?_
  rw [lhs64_at i l, rhs64_at i l]
  rfl

end Cert.RefOps.Mat

end
-- ==== Proof.RefBias.lean ====
/-
  The reference's bias-and-clamp, read index by index at the extended reals.

  The reference lays the bias vector out as one row (a broadcast along a new leading axis), repeats that row over all
  the rows of the array, adds, and takes the maximum with a splat of the zero word. At entry (p, q) the two
  broadcasts read the bias at q, the splat reads the extended real 0, so the entry is max (a(p, q) + b(q)) 0:
  the specification's `biasRelu` of the array and the bias laid out as a row.
-/
import proofs.«118235_j10385230922560_1_alg».proof.Proof.RefOps
import proofs.«118235_j10385230922560_1_alg».proof.Proof.Spec
import Idealize.ShloMosaic.Lib.ValueIdx
import Idealize.ShloMosaic.Lib.Pipeline.Value
import Idealize.ShloMosaic.PureOps.Ideal.Laws

noncomputable section
namespace Cert.RefOps.Bias
open Cert.ReferenceIdeal Cert.ReferenceIdeal.Gen Idealize.ShloMosaic Idealize.ShloMosaic.TcCoe Idealize.ShloMosaic.ValueIdx

/-- The bias laid out as a row and repeated over 100000 rows reads, at (p, q), the bias at q (128 columns). -/
theorem row128_apply (b : FBuf Ideal S128) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply ![0, 1] bcast_S1x128_S100000x128_0_1 (broadcastInDim S1x128 ![1] bcast_S128_S1x128_1 b)
      (ix2 p q) (ix2 (0 : Fin 1) q) (fun ax => by match ax with | ⟨0, _⟩ => rfl | ⟨1, _⟩ => rfl)).trans
    (broadcastInDim_apply ![1] bcast_S128_S1x128_1 b (ix2 (0 : Fin 1) q) (ix1 q)
      (fun ax => by match ax with | ⟨0, _⟩ => rfl))

/-- The splat of the zero word over the 100000 × 128 array reads the extended real 0 everywhere. -/
theorem zero128_apply (p : Fin 100000) (q : Fin 128) :
    broadcastInDim S100000x128 ![] bcast_S_S100000x128 (constant (F := Ideal) S_ .f32 0x00000000#32) (ix2 p q) = (0 : EReal) :=
  (broadcastInDim_apply ![] bcast_S_S100000x128 (constant (F := Ideal) S_ .f32 0x00000000#32) (ix2 p q) ix0
      (fun ax => ax.elim0)).trans
    ((constant_apply (s := S_) (φ := .f32) 0x00000000#32 ix0).trans Ideal.ofBits_zero_f32)

/-- The reference's bias-and-clamp on 128 columns is the specification's. -/
theorem biasRelu128_eq (a : FBuf Ideal S100000x128) (b : FBuf Ideal S128) :
    RefOps.biasRelu128 (F := Ideal) a b = Spec.biasRelu (n := 100000) (k := 128) a (Spec.asRow (k := 128) b) := by
  funext i
  obtain ⟨p, q, rfl⟩ : ∃ (p : Fin 100000) (q : Fin 128), i = ix2 p q := ⟨i 0, i 1, eq_ix2 i⟩
  calc RefOps.biasRelu128 (F := Ideal) a b (ix2 p q)
      = max (a (ix2 p q) + broadcastInDim S100000x128 ![0, 1] bcast_S1x128_S100000x128_0_1 (broadcastInDim S1x128 ![1] bcast_S128_S1x128_1 b) (ix2 p q))
          (broadcastInDim S100000x128 ![] bcast_S_S100000x128 (constant (F := Ideal) S_ .f32 0x00000000#32) (ix2 p q)) := rfl
    _ = max (a (ix2 p q) + b (ix1 q)) 0 := by rw [row128_apply, zero128_apply]
    _ = Spec.biasRelu (n := 100000) (k := 128) a (Spec.asRow (k := 128) b) (ix2 p q) := rfl

/-- The bias laid out as a row and repeated over 100000 rows reads, at (p, q), the bias at q (64 columns). -/
theorem row64_apply (b : FBuf Ideal S64) (p : Fin 100000) (q : Fin 64) :
    broadcastInDim S100000x64 ![0, 1] bcast_S1x64_S100000x64_0_1 (broadcastInDim S1x64 ![1] bcast_S64_S1x64_1 b) (ix2 p q)
      = b (ix1 q) :=
  (broadcastInDim_apply ![0, 1] bcast_S1x64_S100000x64_0_1 (broadcastInDim S1x64 ![1] bcast_S64_S1x64_1 b)
      (ix2 p q) (ix2 (0 : Fin 1) q) (fun ax => by match ax with | ⟨0, _⟩ => rfl | ⟨1, _⟩ => rfl)).trans
    (broadcastInDim_apply ![1] bcast_S64_S1x64_1 b (ix2 (0 : Fin 1) q) (ix1 q)
      (fun ax => by match ax with | ⟨0, _⟩ => rfl))

/-- The splat of the zero word over the 100000 × 64 array reads the extended real 0 everywhere. -/
theorem zero64_apply (p : Fin 100000) (q : Fin 64) :
    broadcastInDim S100000x64 ![] bcast_S_S100000x64 (constant (F := Ideal) S_ .f32 0x00000000#32) (ix2 p q) = (0 : EReal) :=
  (broadcastInDim_apply ![] bcast_S_S100000x64 (constant (F := Ideal) S_ .f32 0x00000000#32) (ix2 p q) ix0
      (fun ax => ax.elim0)).trans
    ((constant_apply (s := S_) (φ := .f32) 0x00000000#32 ix0).trans Ideal.ofBits_zero_f32)

/-- The reference's bias-and-clamp on 64 columns is the specification's. -/
theorem biasRelu64_eq (a : FBuf Ideal S100000x64) (b : FBuf Ideal S64) :
    RefOps.biasRelu64 (F := Ideal) a b = Spec.biasRelu (n := 100000) (k := 64) a (Spec.asRow (k := 64) b) := by
  funext i
  obtain ⟨p, q, rfl⟩ : ∃ (p : Fin 100000) (q : Fin 64), i = ix2 p q := ⟨i 0, i 1, eq_ix2 i⟩
  calc RefOps.biasRelu64 (F := Ideal) a b (ix2 p q)
      = max (a (ix2 p q) + broadcastInDim S100000x64 ![0, 1] bcast_S1x64_S100000x64_0_1 (broadcastInDim S1x64 ![1] bcast_S64_S1x64_1 b) (ix2 p q))
          (broadcastInDim S100000x64 ![] bcast_S_S100000x64 (constant (F := Ideal) S_ .f32 0x00000000#32) (ix2 p q)) := rfl
    _ = max (a (ix2 p q) + b (ix1 q)) 0 := by rw [row64_apply, zero64_apply]
    _ = Spec.biasRelu (n := 100000) (k := 64) a (Spec.asRow (k := 64) b) (ix2 p q) := rfl

end Cert.RefOps.Bias
end
-- ==== Proof.KernelNet.lean ====
/-
  The kernel program's result as a function of the arrays it is launched with. The program alternates host stretches
  and regions; the contents of memory at each boundary are a fold from the launch memory. Walking that fold: the host
  first computes the edge sources, targets and weights, which nothing later overwrites; each matmul region leaves the
  product of the array it finds and a weight matrix; the host stretch after it gathers, scales and re-sums the product's
  rows along the edges and lays the bias out as a row; the region after that adds the bias and clamps at zero. Three
  such layers, the last ending in the row-wise log-softmax, are the reference's network, operation for operation.
-/
import proofs.«118235_j10385230922560_1_alg».proof.Proof.Gen.KernelIdeal.Frame
import proofs.«118235_j10385230922560_1_alg».proof.Proof.KernelHost
import proofs.«118235_j10385230922560_1_alg».proof.Proof.KernelPrefix
import proofs.«118235_j10385230922560_1_alg».proof.Proof.Layers
import proofs.«118235_j10385230922560_1_alg».proof.Proof.RegionMatmul0
import proofs.«118235_j10385230922560_1_alg».proof.Proof.RegionMatmul2
import proofs.«118235_j10385230922560_1_alg».proof.Proof.RegionMatmul4
import proofs.«118235_j10385230922560_1_alg».proof.Proof.RegionBias1
import proofs.«118235_j10385230922560_1_alg».proof.Proof.RegionBias3
import proofs.«118235_j10385230922560_1_alg».proof.Proof.RefMatmul
import proofs.«118235_j10385230922560_1_alg».proof.Proof.RefBias
import proofs.«118235_j10385230922560_1_alg».proof.Proof.Spec
import Idealize.ShloMosaic.Lib.ValueIdx
import Idealize.ShloMosaic.Lib.ValueLayout

noncomputable section

namespace Cert.KernelIdeal.Net

open Cert.KernelIdeal Cert.KernelIdeal.Gen Idealize.ShloMosaic Idealize.ShloMosaic.TcCoe Idealize.SL.Sem Idealize.ShloMosaic.StableHlo Idealize.ShloMosaic.ValueIdx

section Boundaries
variable (m : (ℓ : Loc nD τ sig) → Buf (Elt Ideal) ℓ) (ρ : Dev nD → PrngReg) (c : Dev nD)

/-! ## The edge data: computed once before the first region, and kept by everything after -/

/-- At the first region's entry the host has computed the edge sources from the edge list. -/
theorem w3_v3 : W3 (F := Ideal) m ρ c (Proc.devRef .tc main_v3) = RefOps.src (F := Ideal) (m ((c : Thread nD τ).loc main_arg1)) :=
  HostValue.prefix_src (W0 (F := Ideal) m ρ c)
theorem w4_v3 : W4 (F := Ideal) m ρ c (Proc.devRef .tc main_v3) = RefOps.src (F := Ideal) (m ((c : Thread nD τ).loc main_arg1)) :=
  (W4_of_ne m ρ c main_v3 (by decide)).trans (w3_v3 m ρ c)
theorem w5_v3 : W5 (F := Ideal) m ρ c (Proc.devRef .tc main_v3) = RefOps.src (F := Ideal) (m ((c : Thread nD τ).loc main_arg1)) :=
  (HostValue.stretch1_keep_v3 (W4 (F := Ideal) m ρ c)).trans (w4_v3 m ρ c)
theorem w6_v3 : W6 (F := Ideal) m ρ c (Proc.devRef .tc main_v3) = RefOps.src (F := Ideal) (m ((c : Thread nD τ).loc main_arg1)) :=
  (W6_of_ne m ρ c main_v3 (by decide)).trans (w5_v3 m ρ c)
theorem w7_v3 : W7 (F := Ideal) m ρ c (Proc.devRef .tc main_v3) = RefOps.src (F := Ideal) (m ((c : Thread nD τ).loc main_arg1)) :=
  (W7_of_ne m ρ c main_v3 (by decide)).trans (w6_v3 m ρ c)
theorem w8_v3 : W8 (F := Ideal) m ρ c (Proc.devRef .tc main_v3) = RefOps.src (F := Ideal) (m ((c : Thread nD τ).loc main_arg1)) :=
  (HostValue.stretch3_keep_v3 (W7 (F := Ideal) m ρ c)).trans (w7_v3 m ρ c)
theorem w9_v3 : W9 (F := Ideal) m ρ c (Proc.devRef .tc main_v3) = RefOps.src (F := Ideal) (m ((c : Thread nD τ).loc main_arg1)) :=
  (W9_of_ne m ρ c main_v3 (by decide)).trans (w8_v3 m ρ c)
theorem w10_v3 : W10 (F := Ideal) m ρ c (Proc.devRef .tc main_v3) = RefOps.src (F := Ideal) (m ((c : Thread nD τ).loc main_arg1)) :=
  (W10_of_ne m ρ c main_v3 (by decide)).trans (w9_v3 m ρ c)

/-- At the first region's entry the host has computed the edge targets from the edge list. -/
theorem w3_v6 : W3 (F := Ideal) m ρ c (Proc.devRef .tc main_v6) = RefOps.dst (F := Ideal) (m ((c : Thread nD τ).loc main_arg1)) :=
  HostValue.prefix_dst (W0 (F := Ideal) m ρ c)
theorem w4_v6 : W4 (F := Ideal) m ρ c (Proc.devRef .tc main_v6) = RefOps.dst (F := Ideal) (m ((c : Thread nD τ).loc main_arg1)) :=
  (W4_of_ne m ρ c main_v6 (by decide)).trans (w3_v6 m ρ c)
theorem w5_v6 : W5 (F := Ideal) m ρ c (Proc.devRef .tc main_v6) = RefOps.dst (F := Ideal) (m ((c : Thread nD τ).loc main_arg1)) :=
  (HostValue.stretch1_keep_v6 (W4 (F := Ideal) m ρ c)).trans (w4_v6 m ρ c)
theorem w6_v6 : W6 (F := Ideal) m ρ c (Proc.devRef .tc main_v6) = RefOps.dst (F := Ideal) (m ((c : Thread nD τ).loc main_arg1)) :=
  (W6_of_ne m ρ c main_v6 (by decide)).trans (w5_v6 m ρ c)
theorem w7_v6 : W7 (F := Ideal) m ρ c (Proc.devRef .tc main_v6) = RefOps.dst (F := Ideal) (m ((c : Thread nD τ).loc main_arg1)) :=
  (W7_of_ne m ρ c main_v6 (by decide)).trans (w6_v6 m ρ c)
theorem w8_v6 : W8 (F := Ideal) m ρ c (Proc.devRef .tc main_v6) = RefOps.dst (F := Ideal) (m ((c : Thread nD τ).loc main_arg1)) :=
  (HostValue.stretch3_keep_v6 (W7 (F := Ideal) m ρ c)).trans (w7_v6 m ρ c)
theorem w9_v6 : W9 (F := Ideal) m ρ c (Proc.devRef .tc main_v6) = RefOps.dst (F := Ideal) (m ((c : Thread nD τ).loc main_arg1)) :=
  (W9_of_ne m ρ c main_v6 (by decide)).trans (w8_v6 m ρ c)
theorem w10_v6 : W10 (F := Ideal) m ρ c (Proc.devRef .tc main_v6) = RefOps.dst (F := Ideal) (m ((c : Thread nD τ).loc main_arg1)) :=
  (W10_of_ne m ρ c main_v6 (by decide)).trans (w9_v6 m ρ c)

/-- At the first region's entry the host has computed the edge weights from the edge list. -/
theorem w3_v31 : W3 (F := Ideal) m ρ c (Proc.devRef .tc main_v31) = RefOps.norm (F := Ideal) (m ((c : Thread nD τ).loc main_arg1)) :=
  HostValue.prefix_norm (W0 (F := Ideal) m ρ c)
theorem w4_v31 : W4 (F := Ideal) m ρ c (Proc.devRef .tc main_v31) = RefOps.norm (F := Ideal) (m ((c : Thread nD τ).loc main_arg1)) :=
  (W4_of_ne m ρ c main_v31 (by decide)).trans (w3_v31 m ρ c)
theorem w5_v31 : W5 (F := Ideal) m ρ c (Proc.devRef .tc main_v31) = RefOps.norm (F := Ideal) (m ((c : Thread nD τ).loc main_arg1)) :=
  (HostValue.stretch1_keep_v31 (W4 (F := Ideal) m ρ c)).trans (w4_v31 m ρ c)
theorem w6_v31 : W6 (F := Ideal) m ρ c (Proc.devRef .tc main_v31) = RefOps.norm (F := Ideal) (m ((c : Thread nD τ).loc main_arg1)) :=
  (W6_of_ne m ρ c main_v31 (by decide)).trans (w5_v31 m ρ c)
theorem w7_v31 : W7 (F := Ideal) m ρ c (Proc.devRef .tc main_v31) = RefOps.norm (F := Ideal) (m ((c : Thread nD τ).loc main_arg1)) :=
  (W7_of_ne m ρ c main_v31 (by decide)).trans (w6_v31 m ρ c)
theorem w8_v31 : W8 (F := Ideal) m ρ c (Proc.devRef .tc main_v31) = RefOps.norm (F := Ideal) (m ((c : Thread nD τ).loc main_arg1)) :=
  (HostValue.stretch3_keep_v31 (W7 (F := Ideal) m ρ c)).trans (w7_v31 m ρ c)
theorem w9_v31 : W9 (F := Ideal) m ρ c (Proc.devRef .tc main_v31) = RefOps.norm (F := Ideal) (m ((c : Thread nD τ).loc main_arg1)) :=
  (W9_of_ne m ρ c main_v31 (by decide)).trans (w8_v31 m ρ c)
theorem w10_v31 : W10 (F := Ideal) m ρ c (Proc.devRef .tc main_v31) = RefOps.norm (F := Ideal) (m ((c : Thread nD τ).loc main_arg1)) :=
  (W10_of_ne m ρ c main_v31 (by decide)).trans (w9_v31 m ρ c)

/-! ## The argument arrays: as launched, at each boundary where a region or a host stretch reads them -/

theorem w3_arg0 : W3 (F := Ideal) m ρ c (Proc.devRef .tc main_arg0) = (m ((c : Thread nD τ).loc main_arg0)) :=
  HostValue.prefix_keep_arg0 (W0 (F := Ideal) m ρ c)

theorem w3_arg2 : W3 (F := Ideal) m ρ c (Proc.devRef .tc main_arg2) = (m ((c : Thread nD τ).loc main_arg2)) :=
  HostValue.prefix_keep_arg2 (W0 (F := Ideal) m ρ c)

theorem w3_arg3 : W3 (F := Ideal) m ρ c (Proc.devRef .tc main_arg3) = (m ((c : Thread nD τ).loc main_arg3)) :=
  HostValue.prefix_keep_arg3 (W0 (F := Ideal) m ρ c)
theorem w4_arg3 : W4 (F := Ideal) m ρ c (Proc.devRef .tc main_arg3) = (m ((c : Thread nD τ).loc main_arg3)) :=
  (W4_of_ne m ρ c main_arg3 (by decide)).trans (w3_arg3 m ρ c)

theorem w3_arg4 : W3 (F := Ideal) m ρ c (Proc.devRef .tc main_arg4) = (m ((c : Thread nD τ).loc main_arg4)) :=
  HostValue.prefix_keep_arg4 (W0 (F := Ideal) m ρ c)
theorem w4_arg4 : W4 (F := Ideal) m ρ c (Proc.devRef .tc main_arg4) = (m ((c : Thread nD τ).loc main_arg4)) :=
  (W4_of_ne m ρ c main_arg4 (by decide)).trans (w3_arg4 m ρ c)
theorem w5_arg4 : W5 (F := Ideal) m ρ c (Proc.devRef .tc main_arg4) = (m ((c : Thread nD τ).loc main_arg4)) :=
  (HostValue.stretch1_keep_arg4 (W4 (F := Ideal) m ρ c)).trans (w4_arg4 m ρ c)
theorem w6_arg4 : W6 (F := Ideal) m ρ c (Proc.devRef .tc main_arg4) = (m ((c : Thread nD τ).loc main_arg4)) :=
  (W6_of_ne m ρ c main_arg4 (by decide)).trans (w5_arg4 m ρ c)

theorem w3_arg5 : W3 (F := Ideal) m ρ c (Proc.devRef .tc main_arg5) = (m ((c : Thread nD τ).loc main_arg5)) :=
  HostValue.prefix_keep_arg5 (W0 (F := Ideal) m ρ c)
theorem w4_arg5 : W4 (F := Ideal) m ρ c (Proc.devRef .tc main_arg5) = (m ((c : Thread nD τ).loc main_arg5)) :=
  (W4_of_ne m ρ c main_arg5 (by decide)).trans (w3_arg5 m ρ c)
theorem w5_arg5 : W5 (F := Ideal) m ρ c (Proc.devRef .tc main_arg5) = (m ((c : Thread nD τ).loc main_arg5)) :=
  (HostValue.stretch1_keep_arg5 (W4 (F := Ideal) m ρ c)).trans (w4_arg5 m ρ c)
theorem w6_arg5 : W6 (F := Ideal) m ρ c (Proc.devRef .tc main_arg5) = (m ((c : Thread nD τ).loc main_arg5)) :=
  (W6_of_ne m ρ c main_arg5 (by decide)).trans (w5_arg5 m ρ c)
theorem w7_arg5 : W7 (F := Ideal) m ρ c (Proc.devRef .tc main_arg5) = (m ((c : Thread nD τ).loc main_arg5)) :=
  (W7_of_ne m ρ c main_arg5 (by decide)).trans (w6_arg5 m ρ c)

theorem w3_arg6 : W3 (F := Ideal) m ρ c (Proc.devRef .tc main_arg6) = (m ((c : Thread nD τ).loc main_arg6)) :=
  HostValue.prefix_keep_arg6 (W0 (F := Ideal) m ρ c)
theorem w4_arg6 : W4 (F := Ideal) m ρ c (Proc.devRef .tc main_arg6) = (m ((c : Thread nD τ).loc main_arg6)) :=
  (W4_of_ne m ρ c main_arg6 (by decide)).trans (w3_arg6 m ρ c)
theorem w5_arg6 : W5 (F := Ideal) m ρ c (Proc.devRef .tc main_arg6) = (m ((c : Thread nD τ).loc main_arg6)) :=
  (HostValue.stretch1_keep_arg6 (W4 (F := Ideal) m ρ c)).trans (w4_arg6 m ρ c)
theorem w6_arg6 : W6 (F := Ideal) m ρ c (Proc.devRef .tc main_arg6) = (m ((c : Thread nD τ).loc main_arg6)) :=
  (W6_of_ne m ρ c main_arg6 (by decide)).trans (w5_arg6 m ρ c)
theorem w7_arg6 : W7 (F := Ideal) m ρ c (Proc.devRef .tc main_arg6) = (m ((c : Thread nD τ).loc main_arg6)) :=
  (W7_of_ne m ρ c main_arg6 (by decide)).trans (w6_arg6 m ρ c)
theorem w8_arg6 : W8 (F := Ideal) m ρ c (Proc.devRef .tc main_arg6) = (m ((c : Thread nD τ).loc main_arg6)) :=
  (HostValue.stretch3_keep_arg6 (W7 (F := Ideal) m ρ c)).trans (w7_arg6 m ρ c)
theorem w9_arg6 : W9 (F := Ideal) m ρ c (Proc.devRef .tc main_arg6) = (m ((c : Thread nD τ).loc main_arg6)) :=
  (W9_of_ne m ρ c main_arg6 (by decide)).trans (w8_arg6 m ρ c)

theorem w3_arg7 : W3 (F := Ideal) m ρ c (Proc.devRef .tc main_arg7) = (m ((c : Thread nD τ).loc main_arg7)) :=
  HostValue.prefix_keep_arg7 (W0 (F := Ideal) m ρ c)
theorem w4_arg7 : W4 (F := Ideal) m ρ c (Proc.devRef .tc main_arg7) = (m ((c : Thread nD τ).loc main_arg7)) :=
  (W4_of_ne m ρ c main_arg7 (by decide)).trans (w3_arg7 m ρ c)
theorem w5_arg7 : W5 (F := Ideal) m ρ c (Proc.devRef .tc main_arg7) = (m ((c : Thread nD τ).loc main_arg7)) :=
  (HostValue.stretch1_keep_arg7 (W4 (F := Ideal) m ρ c)).trans (w4_arg7 m ρ c)
theorem w6_arg7 : W6 (F := Ideal) m ρ c (Proc.devRef .tc main_arg7) = (m ((c : Thread nD τ).loc main_arg7)) :=
  (W6_of_ne m ρ c main_arg7 (by decide)).trans (w5_arg7 m ρ c)
theorem w7_arg7 : W7 (F := Ideal) m ρ c (Proc.devRef .tc main_arg7) = (m ((c : Thread nD τ).loc main_arg7)) :=
  (W7_of_ne m ρ c main_arg7 (by decide)).trans (w6_arg7 m ρ c)
theorem w8_arg7 : W8 (F := Ideal) m ρ c (Proc.devRef .tc main_arg7) = (m ((c : Thread nD τ).loc main_arg7)) :=
  (HostValue.stretch3_keep_arg7 (W7 (F := Ideal) m ρ c)).trans (w7_arg7 m ρ c)
theorem w9_arg7 : W9 (F := Ideal) m ρ c (Proc.devRef .tc main_arg7) = (m ((c : Thread nD τ).loc main_arg7)) :=
  (W9_of_ne m ρ c main_arg7 (by decide)).trans (w8_arg7 m ρ c)
theorem w10_arg7 : W10 (F := Ideal) m ρ c (Proc.devRef .tc main_arg7) = (m ((c : Thread nD τ).loc main_arg7)) :=
  (W10_of_ne m ρ c main_arg7 (by decide)).trans (w9_arg7 m ρ c)

/-! ## A bias vector laid out as one row -/

/-- A vector of length 128 reshaped to one row is the specification's row. -/
theorem asRow128 (b : S128.Idx → EReal) : shapeCast S1x128 b shapeCasts_S128_S1x128 = Spec.asRow (k := 128) b := by
  funext i
  obtain ⟨u, q, rfl⟩ : ∃ (u : Fin 1) (q : Fin 128), i = ix2 u q := ⟨i 0, i 1, eq_ix2 i⟩
  exact shapeCast_a_1a_apply b shapeCasts_S128_S1x128 u q
/-- A vector of length 64 reshaped to one row is the specification's row. -/
theorem asRow64 (b : S64.Idx → EReal) : shapeCast S1x64 b shapeCasts_S64_S1x64 = Spec.asRow (k := 64) b := by
  funext i
  obtain ⟨u, q, rfl⟩ : ∃ (u : Fin 1) (q : Fin 64), i = ix2 u q := ⟨i 0, i 1, eq_ix2 i⟩
  exact shapeCast_a_1a_apply b shapeCasts_S64_S1x64 u q

/-! ## The first layer -/

/-- The first region leaves the product of the features and the first weight matrix. -/
theorem w4_v32 : W4 (F := Ideal) m ρ c (Proc.devRef .tc main_v32) = (RefOps.mm128 (F := Ideal) (m ((c : Thread nD τ).loc main_arg0)) (m ((c : Thread nD τ).loc main_arg2))) :=
  (W4_arr m ρ c 2).trans ((Region0.final0 (V3 (F := Ideal) m ρ) c).trans
    ((congrArg₂ (Spec.matProd (n := 100000) (k := 128) (j := 128)) (w3_arg0 m ρ c) (w3_arg2 m ρ c)).trans (RefOps.Mat.mm128_eq _ _).symm))

/-- The host then gathers, scales and re-sums its rows along the edges … -/
theorem w5_v45 : W5 (F := Ideal) m ρ c (Proc.devRef .tc main_v45) = (RefOps.agg128 (F := Ideal) (m ((c : Thread nD τ).loc main_arg1)) (RefOps.mm128 (F := Ideal) (m ((c : Thread nD τ).loc main_arg0)) (m ((c : Thread nD τ).loc main_arg2)))) :=
  (HostValue.stretch1_agg (W4 (F := Ideal) m ρ c)).trans (by
    rw [w4_v3 m ρ c, w4_v6 m ρ c, w4_v31 m ρ c, w4_v32 m ρ c]
    exact (RefOps.agg128_eq _ _).symm)
/-- … and lays the first bias out as a row. -/
theorem w5_v46 : W5 (F := Ideal) m ρ c (Proc.devRef .tc main_v46) = Spec.asRow (k := 128) (m ((c : Thread nD τ).loc main_arg3)) :=
  (HostValue.stretch1_bias (W4 (F := Ideal) m ρ c)).trans (by
    rw [w4_arg3 m ρ c]
    exact asRow128 _)

/-- The second region adds the bias and clamps: the first hidden layer. -/
theorem w6_v47 : W6 (F := Ideal) m ρ c (Proc.devRef .tc main_v47) = (RefOps.layer128 (F := Ideal) (m ((c : Thread nD τ).loc main_arg1)) (m ((c : Thread nD τ).loc main_arg0)) (m ((c : Thread nD τ).loc main_arg2)) (m ((c : Thread nD τ).loc main_arg3))) :=
  (W6_arr m ρ c 2).trans ((Region1.final1 (V5 (F := Ideal) m ρ) c).trans
    ((congrArg₂ (Spec.biasRelu (n := 100000) (k := 128)) (w5_v45 m ρ c) (w5_v46 m ρ c)).trans (RefOps.Bias.biasRelu128_eq _ _).symm))

/-! ## The second layer -/

/-- The third region multiplies the first hidden layer by the second weight matrix. -/
theorem w7_v48 : W7 (F := Ideal) m ρ c (Proc.devRef .tc main_v48) = (RefOps.mm128 (F := Ideal) (RefOps.layer128 (F := Ideal) (m ((c : Thread nD τ).loc main_arg1)) (m ((c : Thread nD τ).loc main_arg0)) (m ((c : Thread nD τ).loc main_arg2)) (m ((c : Thread nD τ).loc main_arg3))) (m ((c : Thread nD τ).loc main_arg4))) :=
  (W7_arr m ρ c 2).trans ((Region2.final2 (V6 (F := Ideal) m ρ) c).trans
    ((congrArg₂ (Spec.matProd (n := 100000) (k := 128) (j := 128)) (w6_v47 m ρ c) (w6_arg4 m ρ c)).trans (RefOps.Mat.mm128_eq _ _).symm))

theorem w8_v61 : W8 (F := Ideal) m ρ c (Proc.devRef .tc main_v61) = (RefOps.agg128 (F := Ideal) (m ((c : Thread nD τ).loc main_arg1)) (RefOps.mm128 (F := Ideal) (RefOps.layer128 (F := Ideal) (m ((c : Thread nD τ).loc main_arg1)) (m ((c : Thread nD τ).loc main_arg0)) (m ((c : Thread nD τ).loc main_arg2)) (m ((c : Thread nD τ).loc main_arg3))) (m ((c : Thread nD τ).loc main_arg4)))) :=
  (HostValue.stretch3_agg (W7 (F := Ideal) m ρ c)).trans (by
    rw [w7_v3 m ρ c, w7_v6 m ρ c, w7_v31 m ρ c, w7_v48 m ρ c]
    exact (RefOps.agg128_eq _ _).symm)
theorem w8_v62 : W8 (F := Ideal) m ρ c (Proc.devRef .tc main_v62) = Spec.asRow (k := 128) (m ((c : Thread nD τ).loc main_arg5)) :=
  (HostValue.stretch3_bias (W7 (F := Ideal) m ρ c)).trans (by
    rw [w7_arg5 m ρ c]
    exact asRow128 _)

/-- The fourth region adds the bias and clamps: the second hidden layer. -/
theorem w9_v63 : W9 (F := Ideal) m ρ c (Proc.devRef .tc main_v63) = (RefOps.layer128 (F := Ideal) (m ((c : Thread nD τ).loc main_arg1)) (RefOps.layer128 (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) :=
  (W9_arr m ρ c 2).trans ((Region3.final3 (V8 (F := Ideal) m ρ) c).trans
    ((congrArg₂ (Spec.biasRelu (n := 100000) (k := 128)) (w8_v61 m ρ c) (w8_v62 m ρ c)).trans (RefOps.Bias.biasRelu128_eq _ _).symm))

/-! ## The output layer -/

/-- The fifth region multiplies the second hidden layer by the last weight matrix. -/
theorem w10_v64 : W10 (F := Ideal) m ρ c (Proc.devRef .tc main_v64) = (RefOps.mm64 (F := Ideal) (RefOps.layer128 (F := Ideal) (m ((c : Thread nD τ).loc main_arg1)) (RefOps.layer128 (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) :=
  (W10_arr m ρ c 2).trans ((Region4.final4 (V9 (F := Ideal) m ρ) c).trans
    ((congrArg₂ (Spec.matProd (n := 100000) (k := 128) (j := 64)) (w9_v63 m ρ c) (w9_arg6 m ρ c)).trans (RefOps.Mat.mm64_eq _ _).symm))

theorem w11_v77 : W11 (F := Ideal) m ρ c (Proc.devRef .tc main_v77) = (RefOps.agg64 (F := Ideal) (m ((c : Thread nD τ).loc main_arg1)) (RefOps.mm64 (F := Ideal) (RefOps.layer128 (F := Ideal) (m ((c : Thread nD τ).loc main_arg1)) (RefOps.layer128 (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)))) :=
  (HostValue.stretch5_agg (W10 (F := Ideal) m ρ c)).trans (by
    rw [w10_v3 m ρ c, w10_v6 m ρ c, w10_v31 m ρ c, w10_v64 m ρ c]
    exact (RefOps.agg64_eq _ _).symm)
theorem w11_v78 : W11 (F := Ideal) m ρ c (Proc.devRef .tc main_v78) = Spec.asRow (k := 64) (m ((c : Thread nD τ).loc main_arg7)) :=
  (HostValue.stretch5_bias (W10 (F := Ideal) m ρ c)).trans (by
    rw [w10_arg7 m ρ c]
    exact asRow64 _)

end Boundaries

/-- The last region adds the bias, clamps, and takes the row-wise log-softmax: the kernel's result is the reference's
    network of the launch arrays. The last region's value and the reference's log-softmax read as the specification's
    are taken as hypotheses. -/
theorem result_eq
    (hfinal5 : ∀ (V : (c : Dev nD) → (b : Ref sig .tc) → Buf (Elt Ideal) ((c : Thread nD τ).loc b)) (c : Dev nD),
        (dat5 (F := Ideal) V c).arrAt 2 cfg5.N
          = Spec.logSoftmax (n := 100000) (k := 64) (Spec.biasRelu (n := 100000) (k := 64) (V c main_v77) (V c main_v78)))
    (hlsm : ∀ z : RefOps.FBuf Ideal Cert.ReferenceIdeal.S100000x64,
        RefOps.logSoftmax (F := Ideal) z = Spec.logSoftmax (n := 100000) (k := 64) z)
    (m : (ℓ : Loc nD τ sig) → Buf (Elt Ideal) ℓ) (ρ : Dev nD → PrngReg) (c : Dev nD) :
    W12 (F := Ideal) m ρ c (Proc.devRef .tc main_v79)
      = RefOps.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold RefOps.result RefOps.layer64
  exact (W12_arr m ρ c 2).trans ((hfinal5 (V11 (F := Ideal) m ρ) c).trans
    ((congrArg (Spec.logSoftmax (n := 100000) (k := 64))
        ((congrArg₂ (Spec.biasRelu (n := 100000) (k := 64)) (w11_v77 m ρ c) (w11_v78 m ρ c)).trans (RefOps.Bias.biasRelu64_eq _ _).symm)).trans
      (hlsm _).symm))

end Cert.KernelIdeal.Net

end
-- ==== Proof.RegionLogSoftmax5.lean ====
import proofs.«118235_j10385230922560_1_alg».proof.Proof.Gen.KernelIdeal.Frame
import proofs.«118235_j10385230922560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Region5
open Cert.KernelIdeal Cert.KernelIdeal.Gen Idealize.ShloMosaic Idealize.ShloMosaic.TcCoe Idealize.SL.Sem Idealize.ShloMosaic.ValueIdx
open Idealize.ShloMosaic.Pipeline (Dat Cfg Window)
variable (V : (c : Dev nD) → (b : Ref sig .tc) → Buf (Elt Ideal) ((c : Thread nD τ).loc b)) (c : Dev nD)

/-!
  The last region at the extended reals: each grid point adds the bias row to its block of 5000 whole rows, clamps at
  zero, and takes the row-wise log-softmax inside the block. A block holds all 64 columns of each of its rows, so the
  row maximum and the row sum taken inside the block at block row p are the whole array's at row t · 5000 + p, and the
  array the region leaves is the row-wise log-softmax of the biased, clamped input.
-/

/-! ## Small facts about layouts and the two reductions -/

/-- The accumulator word of the row maximum is the extended real −∞. -/
theorem ofBits_negInf_f32 : Ideal.ofBits .f32 0xFF800000#32 = (⊥ : EReal) := by
  simp [Ideal.ofBits, Ideal.ieee]

/-- A vector of length `a` viewed as a column `[a, 1]` reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `p` of a row reduction with column `k` put back is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-! ## The body's payload at an index -/

/-- The row maximum the body takes inside a block. -/
def rowMaxB (z : FVec Ideal S5000x64 .f32) : FVec Ideal S5000 .f32 :=
  multiReduction .maximumf [1] S5000 z 0xFF800000#32 reduces_S5000x64_S5000 (.inl rfl) rfl

/-- The row sum the body takes inside a block. -/
def rowSumB (e : FVec Ideal S5000x64 .f32) : FVec Ideal S5000 .f32 :=
  multiReduction .add [1] S5000 e 0x00000000#32 reduces_S5000x64_S5000 (.inl rfl) rfl

/-- At block row `p` the body's row maximum is the maximum of that row's 64 entries (from −∞). -/
theorem rowMaxB_apply (z : FVec Ideal S5000x64 .f32) (p : Fin 5000) :
    rowMaxB z (ix1 p) = Spec.rowMax (n := 5000) (k := 64) z p := by
  unfold rowMaxB
  refine (Ideal.multiReduction_maximumf_single z 0xFF800000#32 reduces_S5000x64_S5000 (.inl rfl) rfl (ix1 p)).trans ?_
  have hf : (z ∘ reduces_S5000x64_S5000.lift (ix1 p)) = fun k : Fin 64 => z (ix2 p k) :=
    funext fun k => congrArg z (lift_row reduces_S5000x64_S5000 p k)
  show Finset.fold max (Ideal.ofBits .f32 0xFF800000#32) (z ∘ reduces_S5000x64_S5000.lift (ix1 p)) (Finset.univ : Finset (Fin 64))
    = Finset.fold max ⊥ (fun q : Fin 64 => z (ix2 p q)) Finset.univ
  rw [ofBits_negInf_f32, hf]
  rfl

/-- At block row `p` the body's row sum is the sum of that row's 64 entries. -/
theorem rowSumB_apply (e : FVec Ideal S5000x64 .f32) (p : Fin 5000) :
    rowSumB e (ix1 p) = ∑ q : Fin 64, e (ix2 p q) := by
  unfold rowSumB
  refine (Ideal.multiReduction_add_single e 0x00000000#32 reduces_S5000x64_S5000 (.inl rfl) rfl (ix1 p)).trans ?_
  show ∑ k : Fin 64, e (reduces_S5000x64_S5000.lift (ix1 p) k) = ∑ q : Fin 64, e (ix2 p q)
  exact Finset.sum_congr rfl fun k _ => congrArg e (lift_row reduces_S5000x64_S5000 p k)

/-- The block with its row maxima subtracted, as the body writes it: the maxima kept as a column and broadcast along the rows. -/
def shiftedB (z : FVec Ideal S5000x64 .f32) : FVec Ideal S5000x64 .f32 :=
  subf z (broadcastTo S5000x64 (shapeCast S5000x1 (rowMaxB z) shapeCasts_S5000_S5000x1) broadcasts_S5000x1_S5000x64)

/-- The body's operations after the clamp: subtract the row maximum, then the logarithm of the row's sum of exponentials. -/
def lsmB (z : FVec Ideal S5000x64 .f32) : FVec Ideal S5000x64 .f32 :=
  subf (shiftedB z) (broadcastTo S5000x64 (log (shapeCast S5000x1 (rowSumB (exp (shiftedB z))) shapeCasts_S5000_S5000x1)) broadcasts_S5000x1_S5000x64)

/-- The body's bias and clamp. -/
def clampB (x0 : Vec Ideal S5000x64 .f32) (x1 : Vec Ideal S1x64 .f32) : FVec Ideal S5000x64 .f32 :=
  maximumf (addf (shapeCast S5000x64 x0 shapeCasts_S5000x64_S5000x64) (broadcastTo S5000x64 (shapeCast S1x64 x1 shapeCasts_S1x64_S1x64) broadcasts_S1x64_S5000x64))
    (broadcast S5000x64 (Scalar.ofBits .f32 0x00000000#32))

/-- The payload is the log-softmax tail of the biased, clamped block. -/
theorem pay_eq (x0 : Vec Ideal S5000x64 .f32) (x1 : Vec Ideal S1x64 .f32) :
    k5_pay1 (F := Ideal) x0 x1 = lsmB (clampB x0 x1) := rfl

theorem shiftedB_apply (z : FVec Ideal S5000x64 .f32) (p : Fin 5000) (q : Fin 64) :
    shiftedB z (ix2 p q) = z (ix2 p q) - Spec.rowMax (n := 5000) (k := 64) z p := by
  show z (ix2 p q) - broadcastTo S5000x64 (shapeCast S5000x1 (rowMaxB z) shapeCasts_S5000_S5000x1) broadcasts_S5000x1_S5000x64 (ix2 p q) = _
  rw [broadcastTo_a1_ab_apply, shapeCast_a_a1_apply, rowMaxB_apply]

theorem lsmB_apply (z : FVec Ideal S5000x64 .f32) (p : Fin 5000) (q : Fin 64) :
    lsmB z (ix2 p q) = Spec.logSoftmax (n := 5000) (k := 64) z (ix2 p q) := by
  show shiftedB z (ix2 p q) - broadcastTo S5000x64 (log (shapeCast S5000x1 (rowSumB (exp (shiftedB z))) shapeCasts_S5000_S5000x1)) broadcasts_S5000x1_S5000x64 (ix2 p q)
    = (z (ix2 p q) - Spec.rowMax (n := 5000) (k := 64) z p) - Ideal.log (∑ q' : Fin 64, Ideal.exp (z (ix2 p q') - Spec.rowMax (n := 5000) (k := 64) z p))
  rw [broadcastTo_a1_ab_apply]
  show shiftedB z (ix2 p q) - Ideal.log (shapeCast S5000x1 (rowSumB (exp (shiftedB z))) shapeCasts_S5000_S5000x1 (ix2 p (0 : Fin 1))) = _
  rw [shapeCast_a_a1_apply, rowSumB_apply, shiftedB_apply]
  refine congrArg (fun s => (z (ix2 p q) - Spec.rowMax (n := 5000) (k := 64) z p) - Ideal.log s) ?_
  refine Finset.sum_congr rfl fun q' _ => ?_
  show Ideal.exp (shiftedB z (ix2 p q')) = _
  rw [shiftedB_apply]

theorem clampB_apply (x0 : Vec Ideal S5000x64 .f32) (x1 : Vec Ideal S1x64 .f32) (p : Fin 5000) (q : Fin 64) :
    clampB x0 x1 (ix2 p q) = Spec.biasRelu (n := 5000) (k := 64) x0 x1 (ix2 p q) := by
  unfold clampB
  rw [shapeCast_self, shapeCast_self]
  show max (x0 (ix2 p q) + broadcastTo S5000x64 x1 broadcasts_S1x64_S5000x64 (ix2 p q)) (Ideal.ofBits .f32 0x00000000#32)
    = max (x0 (ix2 p q) + x1 (ix2 (0 : Fin 1) q)) 0
  rw [broadcastTo_1b_ab_apply, Ideal.ofBits_zero_f32]

theorem clampB_eq (x0 : Vec Ideal S5000x64 .f32) (x1 : Vec Ideal S1x64 .f32) :
    clampB x0 x1 = Spec.biasRelu (n := 5000) (k := 64) x0 x1 := by
  funext j
  obtain ⟨p, q, rfl⟩ : ∃ (p : Fin 5000) (q : Fin 64), j = ix2 p q := ⟨j 0, j 1, eq_ix2 j⟩
  exact clampB_apply x0 x1 p q

/-- THE PAYLOAD AT AN INDEX: the row-wise log-softmax, inside the block, of the biased and clamped block. -/
theorem pay_apply (x0 : Vec Ideal S5000x64 .f32) (x1 : Vec Ideal S1x64 .f32) (p : Fin 5000) (q : Fin 64) :
    k5_pay1 (F := Ideal) x0 x1 (ix2 p q)
      = Spec.logSoftmax (n := 5000) (k := 64) (Spec.biasRelu (n := 5000) (k := 64) x0 x1) (ix2 p q) := by
  rw [pay_eq, lsmB_apply, clampB_eq]

/-! ## From blocks to the array -/

/-- A block holds whole rows, so the log-softmax of a row inside a block is the row's in the array: if row `p` of `z` is
    row `r` of `z'`, entry by entry, the two log-softmax values on those rows agree. -/
theorem logSoftmax_congr_row {n n' : ℕ} (z : Spec.Arr2 n 64) (z' : Spec.Arr2 n' 64) (p : Fin n) (r : Fin n')
    (h : ∀ q : Fin 64, z (ix2 p q) = z' (ix2 r q)) (q : Fin 64) :
    Spec.logSoftmax (n := n) (k := 64) z (ix2 p q) = Spec.logSoftmax (n := n') (k := 64) z' (ix2 r q) := by
  have hf : (fun q' : Fin 64 => z (ix2 p q')) = fun q' : Fin 64 => z' (ix2 r q') := funext h
  have hm : Spec.rowMax (n := n) (k := 64) z p = Spec.rowMax (n := n') (k := 64) z' r := by
    unfold Spec.rowMax; rw [hf]
  show (z (ix2 p q) - Spec.rowMax (n := n) (k := 64) z p) - Ideal.log (∑ q' : Fin 64, Ideal.exp (z (ix2 p q') - Spec.rowMax (n := n) (k := 64) z p))
    = (z' (ix2 r q) - Spec.rowMax (n := n') (k := 64) z' r) - Ideal.log (∑ q' : Fin 64, Ideal.exp (z' (ix2 r q') - Spec.rowMax (n := n') (k := 64) z' r))
  rw [hm, h q]
  exact congrArg (fun s => z' (ix2 r q) - Spec.rowMax (n := n') (k := 64) z' r - Ideal.log s)
    (Finset.sum_congr rfl fun q' _ => by rw [h q'])

/-- The bias and clamp at an entry depend on that entry and on the bias row's entry in its column only. -/
theorem biasRelu_congr {n n' : ℕ} (a : Spec.Arr2 n 64) (b : Spec.Arr2 1 64) (A : Spec.Arr2 n' 64) (B : Spec.Arr2 1 64)
    (p : Fin n) (r : Fin n') (q : Fin 64)
    (ha : a (ix2 p q) = A (ix2 r q)) (hb : b (ix2 (0 : Fin 1) q) = B (ix2 (0 : Fin 1) q)) :
    Spec.biasRelu (n := n) (k := 64) a b (ix2 p q) = Spec.biasRelu (n := n') (k := 64) A B (ix2 r q) := by
  show max (a (ix2 p q) + b (ix2 (0 : Fin 1) q)) 0 = max (A (ix2 r q) + B (ix2 (0 : Fin 1) q)) 0
  rw [ha, hb]

theorem hz : (![0, 0] : Fin 2 → Nat) = fun _ => 0 := funext fun a => by fin_cases a <;> rfl

/-- The printed index maps, decided over the grid: the input block and the output block at point `t` are block row `t`,
    all columns; the bias row is one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The input window's block at point `t`, read at a block index, is the array read where the block's rectangle puts it. -/
theorem iblk0_apply (t : Fin cfg5.N) (y : S5000x64.Idx) :
    iblk5 (F := Ideal) V c 0 t y = V c main_v77 (((cfg5.win 0).blk t).view.emb y) := rfl

/-- The bias window's one block likewise. -/
theorem iblk1_apply (t : Fin cfg5.N) (y : S1x64.Idx) :
    iblk5 (F := Ideal) V c 1 t y = V c main_v78 (((cfg5.win 1).blk t).view.emb y) := rfl

/-- WHAT POINT `t` WRITES BACK is block `t` of the log-softmax of the biased, clamped array. -/
theorem flushed_eq (t : Fin cfg5.N) :
    (dat5 (F := Ideal) V c).flushed 2 t = ((cfg5.win 2).blk t).view.read (Elt Ideal)
      (Spec.logSoftmax (n := 100000) (k := 64) (Spec.biasRelu (n := 100000) (k := 64) (V c main_v77) (V c main_v78))) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e0, e1, e2, e3, e4, e5⟩ := idx_facts t
  have hN : t.val < 20 := t.isLt.trans_eq N_5
  funext j
  obtain ⟨p, q, rfl⟩ : ∃ (p : Fin 5000) (q : Fin 64), j = ix2 p q := ⟨j 0, j 1, eq_ix2 j⟩
  show k5_pay1 (F := Ideal) (iblk5 V c 0 t) (iblk5 V c 1 t) (ix2 p q)
    = Spec.logSoftmax (n := 100000) (k := 64) (Spec.biasRelu (n := 100000) (k := 64) (V c main_v77) (V c main_v78))
        (((cfg5.win 2).blk t).view.emb (ix2 p q))
  have hr : t.val * 5000 + p.val < 100000 := by have := p.isLt; omega
  have hemb : ((cfg5.win 2).blk t).view.emb (ix2 p q) = ix2 (⟨t.val * 5000 + p.val, hr⟩ : Fin 100000) q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  rw [hemb, pay_apply]
  refine logSoftmax_congr_row _ _ p ⟨t.val * 5000 + p.val, hr⟩ (fun q' => ?_) q
  have h0 : ((cfg5.win 0).blk t).view.emb (ix2 p q') = ix2 (⟨t.val * 5000 + p.val, hr⟩ : Fin 100000) q' := by
    funext a; apply Fin.ext
    match a with
    | ⟨0, _⟩ => show win5_0.index t (0 : Fin 2) * 5000 + 1 * p.val = t.val * 5000 + p.val; omega
    | ⟨1, _⟩ => show win5_0.index t (1 : Fin 2) * 64 + 1 * q'.val = q'.val; omega
  have h1 : ((cfg5.win 1).blk t).view.emb (ix2 (0 : Fin 1) q') = ix2 (0 : Fin 1) q' := by
    funext a; apply Fin.ext
    match a with
    | ⟨0, _⟩ => show win5_1.index t (0 : Fin 2) * 1 + 1 * 0 = 0; omega
    | ⟨1, _⟩ => show win5_1.index t (1 : Fin 2) * 64 + 1 * q'.val = q'.val; omega
  refine biasRelu_congr _ _ _ _ p ⟨t.val * 5000 + p.val, hr⟩ q' ?_ ?_
  · rw [iblk0_apply, h0]
  · rw [iblk1_apply, h1]

/-- An index of the array is in point `t`'s block iff each coordinate is in the block's range on its axis. -/
theorem mem_blk (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v79).slice (win5_2.rect t)).set ↔ _
  rw [View.set_slice_whole, Rect.mem_set_unit]
  exact Iff.rfl

/-- Every index of the array is in some point's block: row `r` is in block row `r / 5000`. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  have ht : (i 0).val / 5000 < cfg5.N := by rw [hN]; omega
  obtain ⟨e0, e1, e2, e3, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    rw [e5]; omega

/-- THE ARRAY after the region: the row-wise log-softmax of the biased, clamped input. -/
theorem final5 : (dat5 (F := Ideal) V c).arrAt 2 cfg5.N = Spec.logSoftmax (n := 100000) (k := 64) (Spec.biasRelu (n := 100000) (k := 64) (V c main_v77) (V c main_v78)) :=
  (dat5 (F := Ideal) V c).arrAt_eq_of_cover 2 _ (fun t _ => flushed_eq V c t) (cover)

end Cert.KernelIdeal.Region5
end
-- ==== Proof.RefLogSoftmax.lean ====
/-
  The reference's row-wise log-softmax, read index by index at the extended reals.

  The reference takes each row's maximum (a fold of max from −∞ over the row, then once more the maximum with −∞,
  which changes nothing), lays the maxima out as a column and repeats the column along the rows, subtracts, takes
  the exponential of every entry, sums each row from zero, takes the logarithm of the sums laid out as a column,
  repeats that column along the rows and subtracts again. At entry (r, q) this is
  (z(r, q) − m) − log (Σ over q' of exp (z(r, q') − m)) with m the maximum of row r: the specification's `logSoftmax`.
-/
import proofs.«118235_j10385230922560_1_alg».proof.Proof.RefOps
import proofs.«118235_j10385230922560_1_alg».proof.Proof.Spec
import Idealize.ShloMosaic.Lib.ValueIdx
import Idealize.ShloMosaic.Lib.IdealHost
import Idealize.ShloMosaic.Lib.Pipeline.Value
import Idealize.ShloMosaic.PureOps.Ideal.Laws
import Idealize.ShloMosaic.PureOps.Reduce

noncomputable section
namespace Cert.RefOps.Lsm
open Cert.ReferenceIdeal Cert.ReferenceIdeal.Gen Idealize.ShloMosaic Idealize.ShloMosaic.TcCoe Idealize.ShloMosaic.ValueIdx

/-- The word of negative infinity is the least extended real. -/
theorem negInf : Ideal.ofBits .f32 0xFF800000#32 = (⊥ : EReal) := by simp [Ideal.ofBits, Ideal.ieee]

/-- Dropping the column axis of a 100000 × 64 array leaves one entry per row. -/
theorem dropCols : Shape.Reduces S100000x64 [1] S100000 := by decide

/-- Row r with the column coordinate q put back is entry (r, q). -/
theorem lift_eq (r : Fin 100000) (q : Fin 64) : dropCols.lift (ix1 r) q = ix2 r q := by
  funext c; apply Fin.ext
  match c with
  | ⟨0, _⟩ => rfl
  | ⟨1, _⟩ => rfl

/-- A vector with one entry per row, laid out as a column and repeated along the 64 columns, reads at (r, q) the
    vector's entry r. -/
theorem col_apply (v : FVec Ideal S100000 .f32) (r : Fin 100000) (q : Fin 64) :
    broadcastInDim S100000x64 ![0, 1] bcast_S100000x1_S100000x64_0_1 (broadcastInDim S100000x1 ![0] bcast_S100000_S100000x1_0 v) (ix2 r q) = v (ix1 r) :=
  (broadcastInDim_apply ![0, 1] bcast_S100000x1_S100000x64_0_1 (broadcastInDim S100000x1 ![0] bcast_S100000_S100000x1_0 v)
      (ix2 r q) (ix2 r (0 : Fin 1)) (fun ax => by match ax with | ⟨0, _⟩ => rfl | ⟨1, _⟩ => rfl)).trans
    (broadcastInDim_apply ![0] bcast_S100000_S100000x1_0 v (ix2 r (0 : Fin 1)) (ix1 r)
      (fun ax => by match ax with | ⟨0, _⟩ => rfl))

/-- The same with the logarithm taken on the column before it is repeated: the logarithm of the vector's entry r. -/
theorem colLog_apply (v : FVec Ideal S100000 .f32) (r : Fin 100000) (q : Fin 64) :
    broadcastInDim S100000x64 ![0, 1] bcast_S100000x1_S100000x64_0_1 (Host.log (F := Ideal) (φ := .f32) (broadcastInDim S100000x1 ![0] bcast_S100000_S100000x1_0 v)) (ix2 r q) = Ideal.log (v (ix1 r)) :=
  (broadcastInDim_apply ![0, 1] bcast_S100000x1_S100000x64_0_1 (Host.log (F := Ideal) (φ := .f32) (broadcastInDim S100000x1 ![0] bcast_S100000_S100000x1_0 v))
      (ix2 r q) (ix2 r (0 : Fin 1)) (fun ax => by match ax with | ⟨0, _⟩ => rfl | ⟨1, _⟩ => rfl)).trans
    (congrArg Ideal.log (broadcastInDim_apply ![0] bcast_S100000_S100000x1_0 v (ix2 r (0 : Fin 1)) (ix1 r)
      (fun ax => by match ax with | ⟨0, _⟩ => rfl)))

/-- The reference's row maxima: the maximum with −∞ of the fold of max from −∞ over each row. -/
def refMax (z : FBuf Ideal S100000x64) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x64_S100000_d1 h_S_)

/-- At row r it is the specification's maximum of the row: −∞ is neutral for max. -/
theorem refMax_apply (z : FBuf Ideal S100000x64) (r : Fin 100000) :
    refMax z (ix1 r) = Spec.rowMax (n := 100000) (k := 64) z r := by
  have hfold := Host.reduce_eq_fold_single (FloatOps.maximumf (F := Ideal) (φ := .f32)) z (constant (F := Ideal) S_ .f32 0xFF800000#32)
    reducesTo_S100000x64_S100000_d1 dropCols h_S_ (ix1 r)
  have hfun : (z ∘ dropCols.lift (ix1 r)) = fun q : Fin 64 => z (ix2 r q) :=
    funext fun q => congrArg z (lift_eq r q)
  have hinit : (constant (F := Ideal) S_ .f32 0xFF800000#32) (Shape.Idx.first h_S_) = (⊥ : EReal) := negInf
  have hb : broadcastInDim S100000 ![] bcast_S_S100000 (constant (F := Ideal) S_ .f32 0xFF800000#32) (ix1 r) = (⊥ : EReal) :=
    (broadcastInDim_scalar_apply bcast_S_S100000 (constant (F := Ideal) S_ .f32 0xFF800000#32) (ix1 r)).trans negInf
  unfold refMax
  refine (maximumf_apply _ _ (ix1 r)).trans ?_
  rw [hb, hfold, hfun, hinit]
  exact max_eq_right bot_le

/-- Every entry minus its row's maximum, as the reference spells it. -/
def refShift (z : FBuf Ideal S100000x64) : FVec Ideal S100000x64 .f32 :=
  subf z (broadcastInDim S100000x64 ![0, 1] bcast_S100000x1_S100000x64_0_1 (broadcastInDim S100000x1 ![0] bcast_S100000_S100000x1_0 (refMax z)))

/-- At (r, q): the entry minus the specification's maximum of row r. -/
theorem refShift_apply (z : FBuf Ideal S100000x64) (r : Fin 100000) (q : Fin 64) :
    refShift z (ix2 r q) = z (ix2 r q) - Spec.rowMax (n := 100000) (k := 64) z r := by
  unfold refShift
  refine (subf_apply (s := S100000x64) (φ := .f32) _ _ (ix2 r q)).trans ?_
  rw [col_apply (refMax z) r q, refMax_apply z r]

/-- The reference's sum over a row of the exponentials, from the zero word: zero plus the sum over the row's columns. -/
theorem rowSum_apply (y : FVec Ideal S100000x64 .f32) (r : Fin 100000) :
    Host.reduceAdd (Host.exp (F := Ideal) (φ := .f32) y) (constant (F := Ideal) S_ .f32 0x00000000#32) reducesTo_S100000x64_S100000_d1 h_S_ (ix1 r)
      = ∑ q : Fin 64, Ideal.exp (y (ix2 r q)) := by
  refine (hostReduceAdd_apply (Host.exp (F := Ideal) (φ := .f32) y) (constant (F := Ideal) S_ .f32 0x00000000#32) reducesTo_S100000x64_S100000_d1 h_S_ (ix1 r)).trans ?_
  refine (Ideal.hostReduceAdd_single reducesTo_S100000x64_S100000_d1 dropCols (Host.exp (F := Ideal) (φ := .f32) y) _ (ix1 r)).trans ?_
  have h0 : (constant (F := Ideal) S_ .f32 0x00000000#32) (Shape.Idx.first h_S_) = (0 : EReal) := Ideal.ofBits_zero_f32
  rw [h0, zero_add]
  exact Finset.sum_congr rfl fun q _ => congrArg Ideal.exp (congrArg y (lift_eq r q))

/-- The reference's log-softmax is those pieces composed (its own operations, operand for operand). -/
theorem logSoftmax_unfold (z : FBuf Ideal S100000x64) :
    RefOps.logSoftmax (F := Ideal) z
      = subf (refShift z) (broadcastInDim S100000x64 ![0, 1] bcast_S100000x1_S100000x64_0_1 (Host.log (F := Ideal) (φ := .f32) (broadcastInDim S100000x1 ![0] bcast_S100000_S100000x1_0 (Host.reduceAdd (Host.exp (F := Ideal) (φ := .f32) (refShift z)) (constant (F := Ideal) S_ .f32 0x00000000#32) reducesTo_S100000x64_S100000_d1 h_S_)))) := rfl

/-- The specification at entry (r, q): the entry minus the row's maximum, minus the logarithm of the row's sum of the
    exponentials of those differences. -/
theorem spec_apply (z : FBuf Ideal S100000x64) (r : Fin 100000) (q : Fin 64) :
    Spec.logSoftmax (n := 100000) (k := 64) z (ix2 r q)
      = (z (ix2 r q) - Spec.rowMax (n := 100000) (k := 64) z r)
        - Ideal.log (∑ q' : Fin 64, Ideal.exp (z (ix2 r q') - Spec.rowMax (n := 100000) (k := 64) z r)) := rfl

/-- The reference's row-wise log-softmax is the specification's. -/
theorem logSoftmax_eq (z : FBuf Ideal S100000x64) :
    RefOps.logSoftmax (F := Ideal) z = Spec.logSoftmax (n := 100000) (k := 64) z := by
  rw [logSoftmax_unfold]
  funext i
  obtain ⟨r, q, rfl⟩ : ∃ (r : Fin 100000) (q : Fin 64), i = ix2 r q := ⟨i 0, i 1, eq_ix2 i⟩
  -- the row's sum of exponentials, then its logarithm repeated along the row
  have hs : Host.reduceAdd (Host.exp (F := Ideal) (φ := .f32) (refShift z)) (constant (F := Ideal) S_ .f32 0x00000000#32) reducesTo_S100000x64_S100000_d1 h_S_ (ix1 r)
      = ∑ q' : Fin 64, Ideal.exp (z (ix2 r q') - Spec.rowMax (n := 100000) (k := 64) z r) :=
    (rowSum_apply (refShift z) r).trans
      (Finset.sum_congr rfl fun q' _ => congrArg Ideal.exp (refShift_apply z r q'))
  have hl := (colLog_apply (Host.reduceAdd (Host.exp (F := Ideal) (φ := .f32) (refShift z)) (constant (F := Ideal) S_ .f32 0x00000000#32) reducesTo_S100000x64_S100000_d1 h_S_) r q).trans
    (congrArg Ideal.log hs)
  refine (subf_apply (refShift z) _ (ix2 r q)).trans ?_
  exact (congrArg₂ (fun a b : EReal => a - b) (refShift_apply z r q) hl).trans (spec_apply z r q).symm

end Cert.RefOps.Lsm
end
-- ==== Proof.RefProg.lean ====
/-
  The reference program's @main as the list of its host operations, in order (a called function's operations stand in its
  call's place), cut into five consecutive stretches: the edge preprocessing (edge lists with self-loops, degrees, edge
  weights), the three graph-convolution layers, and the final row-wise log-softmax. Every weakly fair execution of @main
  terminates with each buffer holding what the operations, applied in order to the launch memory, leave there
  (`run_after`); what that is for the result buffer is read stretch by stretch elsewhere.
-/
import proofs.«118235_j10385230922560_1_alg».proof.Proof.Gen.ReferenceIdeal
import Idealize.ShloMosaic.Lib.StableHlo.Run

noncomputable section

namespace Cert.ReferenceIdeal.Prog

open Cert.ReferenceIdeal Cert.ReferenceIdeal.Gen Idealize.ShloMosaic Idealize.ShloMosaic.TcCoe Idealize.SL.Sem Idealize.ShloMosaic.StableHlo

variable {F : FTy → Type} [FloatOps F]

/-- @main's 127 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf,
    binary main_v67 main_arg6 main_v68 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v84) (TRef.of (T := ⟨S100000x64, .f32⟩) main_call3_v0) (TRef.of (T := ⟨S100000x64, .f32⟩) main_v85) maximumf,
    TRef.nullary (TRef.of (T := ⟨S_, .f32⟩) main_call4_cst) (constant S_ .f32 0xFF800000#32),
    TRef.binary (TRef.of (T := ⟨S100000x64, .f32⟩) main_v85) (TRef.of (T := ⟨S_, .f32⟩) main_call4_cst) (TRef.of (T := ⟨S100000, .f32⟩) main_call4_v0) (fun x v => Host.reduce FloatOps.maximumf x v reducesTo_S100000x64_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x64, .f32⟩) main_call4_v4) (broadcastInDim S100000x64 ![0, 1] bcast_S100000x1_S100000x64_0_1),
    TRef.binary (TRef.of (T := ⟨S100000x64, .f32⟩) main_v85) (TRef.of (T := ⟨S100000x64, .f32⟩) main_call4_v4) (TRef.of (T := ⟨S100000x64, .f32⟩) main_call4_v5) subf,
    TRef.unary (TRef.of (T := ⟨S100000x64, .f32⟩) main_call4_v5) (TRef.of (T := ⟨S100000x64, .f32⟩) main_call4_v6) Host.exp,
    TRef.nullary (TRef.of (T := ⟨S_, .f32⟩) main_call4_cst_1) (constant S_ .f32 0x00000000#32),
    TRef.binary (TRef.of (T := ⟨S100000x64, .f32⟩) main_call4_v6) (TRef.of (T := ⟨S_, .f32⟩) main_call4_cst_1) (TRef.of (T := ⟨S100000, .f32⟩) main_call4_v7) (fun x v => Host.reduceAdd x v reducesTo_S100000x64_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x64, .f32⟩) main_call4_v10) (broadcastInDim S100000x64 ![0, 1] bcast_S100000x1_S100000x64_0_1),
    TRef.binary (TRef.of (T := ⟨S100000x64, .f32⟩) main_call4_v5) (TRef.of (T := ⟨S100000x64, .f32⟩) main_call4_v10) (TRef.of (T := ⟨S100000x64, .f32⟩) main_v86) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The edge preprocessing: sources, targets, degrees, edge weights (43 operations). -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]
/-- The first layer (23 operations). -/
abbrev opsB : List (HloOp τ sig (Elt F)) :=
  [ binary main_arg0 main_arg2 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]
/-- The second layer (23 operations). -/
abbrev opsC : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]
/-- The third layer up to its clamp (23 operations). -/
abbrev opsD : List (HloOp τ sig (Elt F)) :=
  [ binary main_v67 main_arg6 main_v68 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_13 (constantI S_ 32 0#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v71 (broadcastInDim S1700000 ![] bcast_S_S1700000 : (⟨S_, .i32⟩ : BufTy).Contents (Elt F) → (⟨S1700000, .i32⟩ : BufTy).Contents (Elt F)),
    binary main_v3 main_v71 main_v72 (addi : (⟨S1700000, .i32⟩ : BufTy).Contents (Elt F) → (⟨S1700000, .i32⟩ : BufTy).Contents (Elt F) → (⟨S1700000, .i32⟩ : BufTy).Contents (Elt F)),
    ternary main_v70 main_v72 main_v3 main_v73 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v73 main_v74 (broadcastInDim S1700000x1 ![0] bcast_S1700000_S1700000x1_0 : (⟨S1700000, .i32⟩ : BufTy).Contents (Elt F) → (⟨S1700000x1, .i32⟩ : BufTy).Contents (Elt F)),
    binary main_v68 main_v74 main_v75 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v76 (broadcastInDim S1700000x1 ![0] bcast_S1700000_S1700000x1_0 : (⟨S1700000, .f32⟩ : BufTy).Contents (Elt F) → (⟨S1700000x1, .f32⟩ : BufTy).Contents (Elt F)),
    unary main_v76 main_v77 (broadcastInDim S1700000x64 ![0, 1] bcast_S1700000x1_S1700000x64_0_1 : (⟨S1700000x1, .f32⟩ : BufTy).Contents (Elt F) → (⟨S1700000x64, .f32⟩ : BufTy).Contents (Elt F)),
    binary main_v75 main_v77 main_v78 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v79 (broadcastInDim S100000x64 ![] bcast_S_S100000x64 : (⟨S_, .f32⟩ : BufTy).Contents (Elt F) → (⟨S100000x64, .f32⟩ : BufTy).Contents (Elt F)),
    unary main_v6 main_v80 (broadcastInDim S1700000x1 ![0] bcast_S1700000_S1700000x1_0 : (⟨S1700000, .i32⟩ : BufTy).Contents (Elt F) → (⟨S1700000x1, .i32⟩ : BufTy).Contents (Elt F)),
    ternary main_v79 main_v80 main_v78 main_v81 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v84) (TRef.of (T := ⟨S100000x64, .f32⟩) main_call3_v0) (TRef.of (T := ⟨S100000x64, .f32⟩) main_v85) maximumf ]
/-- The row-wise log-softmax (15 operations). -/
abbrev opsE : List (HloOp τ sig (Elt F)) :=
  [ TRef.nullary (TRef.of (T := ⟨S_, .f32⟩) main_call4_cst) (constant S_ .f32 0xFF800000#32),
    TRef.binary (TRef.of (T := ⟨S100000x64, .f32⟩) main_v85) (TRef.of (T := ⟨S_, .f32⟩) main_call4_cst) (TRef.of (T := ⟨S100000, .f32⟩) main_call4_v0) (fun x v => Host.reduce FloatOps.maximumf x v reducesTo_S100000x64_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x64, .f32⟩) main_call4_v4) (broadcastInDim S100000x64 ![0, 1] bcast_S100000x1_S100000x64_0_1),
    TRef.binary (TRef.of (T := ⟨S100000x64, .f32⟩) main_v85) (TRef.of (T := ⟨S100000x64, .f32⟩) main_call4_v4) (TRef.of (T := ⟨S100000x64, .f32⟩) main_call4_v5) subf,
    TRef.unary (TRef.of (T := ⟨S100000x64, .f32⟩) main_call4_v5) (TRef.of (T := ⟨S100000x64, .f32⟩) main_call4_v6) Host.exp,
    TRef.nullary (TRef.of (T := ⟨S_, .f32⟩) main_call4_cst_1) (constant S_ .f32 0x00000000#32),
    TRef.binary (TRef.of (T := ⟨S100000x64, .f32⟩) main_call4_v6) (TRef.of (T := ⟨S_, .f32⟩) main_call4_cst_1) (TRef.of (T := ⟨S100000, .f32⟩) main_call4_v7) (fun x v => Host.reduceAdd x v reducesTo_S100000x64_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x64, .f32⟩) main_call4_v10) (broadcastInDim S100000x64 ![0, 1] bcast_S100000x1_S100000x64_0_1),
    TRef.binary (TRef.of (T := ⟨S100000x64, .f32⟩) main_call4_v5) (TRef.of (T := ⟨S100000x64, .f32⟩) main_call4_v10) (TRef.of (T := ⟨S100000x64, .f32⟩) main_v86) subf ]

/-- The list is its five stretches in order. -/
theorem ops_split : (ops : List (HloOp τ sig (Elt F))) = opsA ++ (opsB ++ (opsC ++ (opsD ++ opsE))) := rfl

/-- Operations applied one list after another are the concatenated list applied. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Every weakly fair execution of @main terminates, nothing faulting, each buffer at what the operations leave there. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Prog

end
-- ==== Proof.RefValue.lean ====
/-
  The reference's result as a function of its arguments.

  Each of the five stretches of the reference's @main is read as a function of the arrays it finds: the preprocessing
  leaves the edge sources, targets and weights (`src`, `dst`, `norm` of the edge list); a layer leaves
  bias-and-clamp of the gather–scale–scatter of the dense product of its input; the last stretch leaves the row-wise
  log-softmax. No stretch writes an array an earlier one left, or an argument. Composed, the result buffer holds
  `RefOps.result` of the arguments, and every weakly fair execution of the reference ends there.
-/
import proofs.«118235_j10385230922560_1_alg».proof.Proof.RefProg
import proofs.«118235_j10385230922560_1_alg».proof.Proof.Layers
import proofs.«118235_j10385230922560_1_alg».proof.Proof.LibTRefCast

noncomputable section

namespace Cert.ReferenceIdeal.RefValue

open Cert.ReferenceIdeal Cert.ReferenceIdeal.Gen Cert.ReferenceIdeal.Prog Idealize.ShloMosaic Idealize.ShloMosaic.TcCoe Idealize.SL.Sem Idealize.ShloMosaic.StableHlo

variable {F : FTy → Type} [FloatOps F] (V : Valuation τ sig (Elt F))

/-! ## The preprocessing -/

set_option maxHeartbeats 4000000 in
theorem A_src : after opsA V (Proc.devRef .tc main_v3) = RefOps.src (V (Proc.devRef .tc main_arg1)) := by
  after_results; try simp only [Cert.Lib.ofBuf_toBuf]
  rfl
set_option maxHeartbeats 4000000 in
theorem A_dst : after opsA V (Proc.devRef .tc main_v6) = RefOps.dst (V (Proc.devRef .tc main_arg1)) := by
  after_results; try simp only [Cert.Lib.ofBuf_toBuf]
  rfl
set_option maxHeartbeats 4000000 in
theorem A_norm : after opsA V (Proc.devRef .tc main_v31) = RefOps.norm (V (Proc.devRef .tc main_arg1)) := by
  after_results; try simp only [Cert.Lib.ofBuf_toBuf]
  rfl
set_option maxHeartbeats 2000000 in
theorem A_keep_arg0 : after opsA V (Proc.devRef .tc main_arg0) = V (Proc.devRef .tc main_arg0) := by after_results
set_option maxHeartbeats 2000000 in
theorem A_keep_arg2 : after opsA V (Proc.devRef .tc main_arg2) = V (Proc.devRef .tc main_arg2) := by after_results
set_option maxHeartbeats 2000000 in
theorem A_keep_arg3 : after opsA V (Proc.devRef .tc main_arg3) = V (Proc.devRef .tc main_arg3) := by after_results
set_option maxHeartbeats 2000000 in
theorem A_keep_arg4 : after opsA V (Proc.devRef .tc main_arg4) = V (Proc.devRef .tc main_arg4) := by after_results
set_option maxHeartbeats 2000000 in
theorem A_keep_arg5 : after opsA V (Proc.devRef .tc main_arg5) = V (Proc.devRef .tc main_arg5) := by after_results
set_option maxHeartbeats 2000000 in
theorem A_keep_arg6 : after opsA V (Proc.devRef .tc main_arg6) = V (Proc.devRef .tc main_arg6) := by after_results
set_option maxHeartbeats 2000000 in
theorem A_keep_arg7 : after opsA V (Proc.devRef .tc main_arg7) = V (Proc.devRef .tc main_arg7) := by after_results

/-! ## The first layer -/

set_option maxHeartbeats 4000000 in
theorem B_out : after opsB V (Proc.devRef .tc main_v49)
    = RefOps.biasRelu128 (RefOps.aggOf128 (V (Proc.devRef .tc main_v3)) (V (Proc.devRef .tc main_v6)) (V (Proc.devRef .tc main_v31)) (RefOps.mm128 (V (Proc.devRef .tc main_arg0)) (V (Proc.devRef .tc main_arg2)))) (V (Proc.devRef .tc main_arg3)) := by
  after_results; try simp only [Cert.Lib.ofBuf_toBuf]
  rfl
set_option maxHeartbeats 2000000 in
theorem B_keep_v3 : after opsB V (Proc.devRef .tc main_v3) = V (Proc.devRef .tc main_v3) := by after_results
set_option maxHeartbeats 2000000 in
theorem B_keep_v6 : after opsB V (Proc.devRef .tc main_v6) = V (Proc.devRef .tc main_v6) := by after_results
set_option maxHeartbeats 2000000 in
theorem B_keep_v31 : after opsB V (Proc.devRef .tc main_v31) = V (Proc.devRef .tc main_v31) := by after_results
set_option maxHeartbeats 2000000 in
theorem B_keep_arg4 : after opsB V (Proc.devRef .tc main_arg4) = V (Proc.devRef .tc main_arg4) := by after_results
set_option maxHeartbeats 2000000 in
theorem B_keep_arg5 : after opsB V (Proc.devRef .tc main_arg5) = V (Proc.devRef .tc main_arg5) := by after_results
set_option maxHeartbeats 2000000 in
theorem B_keep_arg6 : after opsB V (Proc.devRef .tc main_arg6) = V (Proc.devRef .tc main_arg6) := by after_results
set_option maxHeartbeats 2000000 in
theorem B_keep_arg7 : after opsB V (Proc.devRef .tc main_arg7) = V (Proc.devRef .tc main_arg7) := by after_results

/-! ## The second layer -/

set_option maxHeartbeats 4000000 in
theorem C_out : after opsC V (Proc.devRef .tc main_v67)
    = RefOps.biasRelu128 (RefOps.aggOf128 (V (Proc.devRef .tc main_v3)) (V (Proc.devRef .tc main_v6)) (V (Proc.devRef .tc main_v31)) (RefOps.mm128 (V (Proc.devRef .tc main_v49)) (V (Proc.devRef .tc main_arg4)))) (V (Proc.devRef .tc main_arg5)) := by
  after_results; try simp only [Cert.Lib.ofBuf_toBuf]
  rfl
set_option maxHeartbeats 2000000 in
theorem C_keep_v3 : after opsC V (Proc.devRef .tc main_v3) = V (Proc.devRef .tc main_v3) := by after_results
set_option maxHeartbeats 2000000 in
theorem C_keep_v6 : after opsC V (Proc.devRef .tc main_v6) = V (Proc.devRef .tc main_v6) := by after_results
set_option maxHeartbeats 2000000 in
theorem C_keep_v31 : after opsC V (Proc.devRef .tc main_v31) = V (Proc.devRef .tc main_v31) := by after_results
set_option maxHeartbeats 2000000 in
theorem C_keep_arg6 : after opsC V (Proc.devRef .tc main_arg6) = V (Proc.devRef .tc main_arg6) := by after_results
set_option maxHeartbeats 2000000 in
theorem C_keep_arg7 : after opsC V (Proc.devRef .tc main_arg7) = V (Proc.devRef .tc main_arg7) := by after_results

/-! ## The third layer and the log-softmax -/

set_option maxHeartbeats 4000000 in
theorem D_out : after opsD V (Proc.devRef .tc main_v85)
    = RefOps.biasRelu64 (RefOps.aggOf64 (V (Proc.devRef .tc main_v3)) (V (Proc.devRef .tc main_v6)) (V (Proc.devRef .tc main_v31)) (RefOps.mm64 (V (Proc.devRef .tc main_v67)) (V (Proc.devRef .tc main_arg6)))) (V (Proc.devRef .tc main_arg7)) := by
  after_results; try simp only [Cert.Lib.ofBuf_toBuf]
  rfl
set_option maxHeartbeats 4000000 in
theorem E_out : after opsE V (Proc.devRef .tc main_v86) = RefOps.logSoftmax (V (Proc.devRef .tc main_v85)) := by
  after_results; try simp only [Cert.Lib.ofBuf_toBuf]
  rfl

/-! ## Composed -/

set_option maxHeartbeats 2000000 in
/-- The result buffer after all 127 operations: the whole network of the arrays found at the arguments. -/
theorem result_eq : after ops V (Proc.devRef .tc main_v86)
    = RefOps.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append, after_append, E_out, D_out,
    C_out, C_keep_v3, C_keep_v6, C_keep_v31, C_keep_arg6, C_keep_arg7,
    B_out, B_keep_v3, B_keep_v6, B_keep_v31, B_keep_arg4, B_keep_arg5, B_keep_arg6, B_keep_arg7,
    A_src, A_dst, A_norm, A_keep_arg0, A_keep_arg2, A_keep_arg3, A_keep_arg4, A_keep_arg5, A_keep_arg6, A_keep_arg7]
  rfl

set_option maxHeartbeats 8000000 in
theorem kept_arg0 : after ops V (Proc.devRef .tc main_arg0) = V (Proc.devRef .tc main_arg0) := by after_results_simp
set_option maxHeartbeats 8000000 in
theorem kept_arg1 : after ops V (Proc.devRef .tc main_arg1) = V (Proc.devRef .tc main_arg1) := by after_results_simp
set_option maxHeartbeats 8000000 in
theorem kept_arg2 : after ops V (Proc.devRef .tc main_arg2) = V (Proc.devRef .tc main_arg2) := by after_results_simp
set_option maxHeartbeats 8000000 in
theorem kept_arg3 : after ops V (Proc.devRef .tc main_arg3) = V (Proc.devRef .tc main_arg3) := by after_results_simp
set_option maxHeartbeats 8000000 in
theorem kept_arg4 : after ops V (Proc.devRef .tc main_arg4) = V (Proc.devRef .tc main_arg4) := by after_results_simp
set_option maxHeartbeats 8000000 in
theorem kept_arg5 : after ops V (Proc.devRef .tc main_arg5) = V (Proc.devRef .tc main_arg5) := by after_results_simp
set_option maxHeartbeats 8000000 in
theorem kept_arg6 : after ops V (Proc.devRef .tc main_arg6) = V (Proc.devRef .tc main_arg6) := by after_results_simp
set_option maxHeartbeats 8000000 in
theorem kept_arg7 : after ops V (Proc.devRef .tc main_arg7) = V (Proc.devRef .tc main_arg7) := by after_results_simp

/-- Every weakly fair execution of the reference terminates, nothing faulting, its result at the whole network of its
    arguments and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86)
        = RefOps.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v86).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _)⟩)
    (run_after m ρ)

end Cert.ReferenceIdeal.RefValue

end
-- ==== Proof.lean ====
/- Both programs compute a three-layer graph convolution: each layer multiplies the node features by a weight matrix,
   gathers the rows along the edges, scales them by the edge weights and sums them at the edge targets, then adds a bias
   row and clamps at zero; the last layer ends in a row-wise log-softmax. At the extended reals the two agree because a
   bf16 matrix product into a zero accumulator is the plain sum of products; the bias, the clamp and the log-softmax
   taken inside a block of whole rows are the reference's, row by row; and the gather, scale and scatter-add between
   them are the same host operations applied to equal arrays in both programs. -/
import proofs.«118235_j10385230922560_1_alg».proof.Defs
import proofs.«118235_j10385230922560_1_alg».proof.Proof.Gen.Kernel
import proofs.«118235_j10385230922560_1_alg».proof.Proof.Gen.Kernel.Skeleton
import proofs.«118235_j10385230922560_1_alg».proof.Proof.Gen.Kernel.Launch
import proofs.«118235_j10385230922560_1_alg».proof.Proof.Gen.Kernel.Points
import proofs.«118235_j10385230922560_1_alg».proof.Proof.Gen.Kernel.Frame
import proofs.«118235_j10385230922560_1_alg».proof.Proof.Gen.KernelIdeal
import proofs.«118235_j10385230922560_1_alg».proof.Proof.Gen.KernelIdeal.Skeleton
import proofs.«118235_j10385230922560_1_alg».proof.Proof.Gen.KernelIdeal.Launch
import proofs.«118235_j10385230922560_1_alg».proof.Proof.Gen.KernelIdeal.Points
import proofs.«118235_j10385230922560_1_alg».proof.Proof.Gen.KernelIdeal.Frame
import proofs.«118235_j10385230922560_1_alg».proof.Proof.Gen.ReferenceIdeal
import proofs.«118235_j10385230922560_1_alg».proof.Proof.Gen.Pre_finite_inputs
import proofs.«118235_j10385230922560_1_alg».proof.Proof.KernelRun
import proofs.«118235_j10385230922560_1_alg».proof.Proof.KernelNet
import proofs.«118235_j10385230922560_1_alg».proof.Proof.RegionLogSoftmax5
import proofs.«118235_j10385230922560_1_alg».proof.Proof.RefLogSoftmax
import proofs.«118235_j10385230922560_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run with the result named, the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- No operation was rewritten between the kernel and its reading at the extended reals. -/
theorem preserves : Cert.preserves_Kernel_KernelIdeal := trivial

/-- At the extended reals, from memories that agree on the eight arguments, both programs end with the same result
    array: the network of the reference's own operations applied to the arguments. The kernel's result is that network
    by the six regions read one by one; the reference's is that network of its own arguments, which are the kernel's. -/
theorem algebraic : Cert.algebraic_KernelIdeal_ReferenceIdeal := by
  intro m ρ m' ρ' _ hagree
  refine ⟨fun c => Cert.RefOps.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Net.result_eq Cert.KernelIdeal.Region5.final5
        Cert.RefOps.Lsm.logSoftmax_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.RefValue.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
